-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S8x128x2 : Shape := ⟨3, ![8, 128, 2]⟩
abbrev S1026x512 : Shape := ⟨2, ![1026, 512]⟩
abbrev S512 : Shape := ⟨1, ![512]⟩
abbrev S512x256 : Shape := ⟨2, ![512, 256]⟩
abbrev S256 : Shape := ⟨1, ![256]⟩
abbrev S256x4 : Shape := ⟨2, ![256, 4]⟩
abbrev S4 : Shape := ⟨1, ![4]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S8x128x2 : S_.BroadcastsInDim S8x128x2 (![] : Fin 0 → Fin S8x128x2.rank)
  reducesTo_S8x128x2_S_d0_1_2 : S8x128x2.ReducesTo [0, 1, 2] S_
  bcast_S_S1026x512 : S_.BroadcastsInDim S1026x512 (![] : Fin 0 → Fin S1026x512.rank)
  reducesTo_S1026x512_S_d0_1 : S1026x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg7 : FVec F S4 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S256x4 .f32) (main_arg7 : FVec F S4 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x4 .f32 := Host.absf main_arg6
  let main_cst_10 : FVec F S_ .f32 := constant S_ .f32 0x7F800000#32
  let main_v30 : FVec F S256x4 .f32 := broadcastInDim S256x4 ![] bcast_S_S256x4 main_cst_10
  let main_v31 : IVec S256x4 1 := cmpf .olt main_v29 main_v30
  let main_c_11 : IVec S_ 1 := constantI S_ 1 1#1
  let main_v32 : IVec S_ 1 := (fun x v => Host.reduce IntOp.andi x v reducesTo_S256x4_S_d0_1 h_S_) main_v31 main_c_11
  let main_v33 : IVec S_ 1 := andi main_v28 main_v32
  fn_part2 (F := F) main_arg7 main_v33

def fn {F : FTy → Type} [FloatOps F] (main_arg0 : FVec F S8x128x512 .f32) (main_arg1 : FVec F S8x128x2 .f32) (main_arg2 : FVec F S1026x512 .f32) (main_arg3 : FVec F S512 .f32) (main_arg4 : FVec F S512x256 .f32) (main_arg5 : FVec F S256 .f32) (main_arg6 : FVec F S256x4 .f32) (main_arg7 : FVec F S4 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S8x128x2 .f32 := Host.absf main_arg1
  let main_cst_0 : FVec F S_ .f32 := constant S_ .f32 0x7F800000#32
  let main_v5 : FVec F S8x128x2 .f32 := broadcastInDim S8x128x2 ![] bcast_S_S8x128x2 main_cst_0
  let main_v6 : IVec S8x128x2 1 := cmpf .olt main_v4 main_v5
  let main_c_1 : IVec S_ 1 := constantI S_ 1 1#1
  let main_v7 : IVec S_ 1 := (fun x v => Host.reduce IntOp.andi x v reducesTo_S8x128x2_S_d0_1_2 h_S_) main_v6 main_c_1
  let main_v8 : IVec S_ 1 := andi main_v3 main_v7
  let main_v9 : FVec F S1026x512 .f32 := Host.absf main_arg2
  let main_cst_2 : FVec F S_ .f32 := constant S_ .f32 0x7F800000#32
  let main_v10 : FVec F S1026x512 .f32 := broadcastInDim S1026x512 ![] bcast_S_S1026x512 main_cst_2
  let main_v11 : IVec S1026x512 1 := cmpf .olt main_v9 main_v10
  let main_c_3 : IVec S_ 1 := constantI S_ 1 1#1
  let main_v12 : IVec S_ 1 := (fun x v => Host.reduce IntOp.andi x v reducesTo_S1026x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8x128x512 : Shape := ⟨3, ![8, 128, 512]⟩
abbrev S8x128x2 : Shape := ⟨3, ![8, 128, 2]⟩
abbrev S1026x512 : Shape := ⟨2, ![1026, 512]⟩
abbrev S512 : Shape := ⟨1, ![512]⟩
abbrev S512x256 : Shape := ⟨2, ![512, 256]⟩
abbrev S256 : Shape := ⟨1, ![256]⟩
abbrev S256x4 : Shape := ⟨2, ![256, 4]⟩
abbrev S4 : Shape := ⟨1, ![4]⟩
abbrev S1x128x512 : Shape := ⟨3, ![1, 128, 512]⟩
abbrev S1x32x512 : Shape := ⟨3, ![1, 32, 512]⟩
abbrev S1x128x2 : Shape := ⟨3, ![1, 128, 2]⟩
abbrev S1x32x2 : Shape := ⟨3, ![1, 32, 2]⟩
abbrev S1x128x128 : Shape := ⟨3, ![1, 128, 128]⟩
abbrev S128x512 : Shape := ⟨2, ![128, 512]⟩
abbrev S32x512 : Shape := ⟨2, ![32, 512]⟩
abbrev S128x2 : Shape := ⟨2, ![128, 2]⟩
abbrev S32x2 : Shape := ⟨2, ![32, 2]⟩
abbrev S512x512 : Shape := ⟨2, ![512, 512]⟩
abbrev S2x512 : Shape := ⟨2, ![2, 512]⟩
abbrev S1x512 : Shape := ⟨2, ![1, 512]⟩
abbrev S128x1x512 : Shape := ⟨3, ![128, 1, 512]⟩
abbrev S128x32x512 : Shape := ⟨3, ![128, 32, 512]⟩
abbrev S4096x512 : Shape := ⟨2, ![4096, 512]⟩
abbrev S4096x256 : Shape := ⟨2, ![4096, 256]⟩
abbrev S1x256 : Shape := ⟨2, ![1, 256]⟩
abbrev S4096x4 : Shape := ⟨2, ![4096, 4]⟩
abbrev S1x4 : Shape := ⟨2, ![1, 4]⟩
abbrev S128x32x4 : Shape := ⟨3, ![128, 32, 4]⟩
abbrev S128x128 : Shape := ⟨2, ![128, 128]⟩
abbrev S8x128x128x4 : Shape := ⟨4, ![8, 128, 128, 4]⟩

abbrev nBuf : Space → Nat
  | .hbm => 10
  | .vmem => 16
  | .smem => 0
  | _ => 0

abbrev bufTy : (tb : Table) → Fin (tcTables nBuf tb) → BufTy
  | .hbm, ⟨0, _⟩ => ⟨S8x128x512, .f32⟩
  | .hbm, ⟨1, _⟩ => ⟨S8x128x2, .f32⟩
  | .hbm, ⟨2, _⟩ => ⟨S1026x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x4, .f32⟩
  | .hbm, ⟨7, _⟩ => ⟨S4, .f32⟩
  | .hbm, ⟨8, _⟩ => ⟨S8x128x512, .f32⟩
  | .hbm, ⟨9, _⟩ => ⟨S8x128x128x4, .f32⟩
  | .local _ .vmem, ⟨0, _⟩ => ⟨S1x128x512, .f32⟩
  | .local _ .vmem, ⟨1, _⟩ => ⟨S1x128x512, .f32⟩
  | .local _ .vmem, ⟨2, _⟩ => ⟨S1x32x512, .f32⟩
  | .local _ .vmem, ⟨3, _⟩ => ⟨S1x32x512, .f32⟩
  | .local _ .vmem, ⟨4, _⟩ => ⟨S1x128x2, .f32⟩
  | .local _ .vmem, ⟨5, _⟩ => ⟨S1x128x2, .f32⟩
  | .local _ .vmem, ⟨6, _⟩ => ⟨S1x32x2, .f32⟩
  | .local _ .vmem, ⟨7, _⟩ => ⟨S1x32x2, .f32⟩
  | .local _ .vmem, ⟨8, _⟩ => ⟨S1026x512, .f32⟩
  | .local _ .vmem, ⟨9, _⟩ => ⟨S512, .f32⟩
  | .local _ .vmem, ⟨10, _⟩ => ⟨S512x256, .f32⟩
  | .local _ .vmem, ⟨11, _⟩ => ⟨S256, .f32⟩
  | .local _ .vmem, ⟨12, _⟩ => ⟨S256x4, .f32⟩
  | .local _ .vmem, ⟨13, _⟩ => ⟨S4, .f32⟩
  | .local _ .vmem, ⟨14, _⟩ => ⟨S1x128x128, .f32⟩
  | .local _ .vmem, ⟨15, _⟩ => ⟨S1x128x128, .f32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1026x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x128x2_S1x128x2_0_0_0 : ∀ a, (![0, 0, 0] : Fin 3 → Nat) a + S1x128x2.size a ≤ S1x128x2.size a
  h_S1x128x2 : 0 < S1x128x2.numel
  shapeCasts_S1x128x2_S128x2 : S1x128x2.ShapeCasts S128x2
  inb_S1x32x2_S1x32x2_0_0_0 : ∀ a, (![0, 0, 0] : Fin 3 → Nat) a + S1x32x2.size a ≤ S1x32x2.size a
  h_S1x32x2 : 0 < S1x32x2.numel
  shapeCasts_S1x32x2_S32x2 : S1x32x2.ShapeCasts S32x2
  inb_S1026x512_S512x512_0_0 : ∀ a, (![0, 0] : Fin 2 → Nat) a + S512x512.size a ≤ S1026x512.size a
  h_S512x512 : 0 < S512x512.numel
  inb_S1026x512_S512x512_512_0 : ∀ a, (![512, 0] : Fin 2 → Nat) a + S512x512.size a ≤ S1026x512.size a
  inb_S1026x512_S2x512_1024_0 : ∀ a, (![1024, 0] : Fin 2 → Nat) a + S2x512.size a ≤ S1026x512.size a
  h_S2x512 : 0 < S2x512.numel
  bitsLt_bf16_f32 : FTy.bits .bf16 < FTy.bits .f32
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  shapeCasts_S128x512_S128x1x512 : S128x512.ShapeCasts S128x1x512
  shapeCasts_S32x512_S1x32x512 : S32x512.ShapeCasts S1x32x512
  broadcasts_S128x1x512_S128x32x512 : S128x1x512.Broadcasts S128x32x512
  broadcasts_S1x32x512_S128x32x512 : S1x32x512.Broadcasts S128x32x512
  shapeCasts_S128x32x512_S4096x512 : S128x32x512.ShapeCasts S4096x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x4_S256x4_0_0 : ∀ a, (![0, 0] : Fin 2 → Nat) a + S256x4.size a ≤ S256x4.size a
  h_S256x4 : 0 < S256x4.numel
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  shapeCasts_S4096x4_S128x32x4 : S4096x4.ShapeCasts S128x32x4
  shapeCasts_S128x32x4_S128x128 : S128x32x4.ShapeCasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S8x128x512_S8x128x128x4 : S8x128x512.ShapeCasts S8x128x128x4
  dot_S128x512_S512x512_S128x512_1_0_0_1_n_n_wf : DotDims.WF S128x512 S512x512 S128x512 [1] [0] [0] [1] [] []
  dot_S128x2_S2x512_S128x512_1_0_0_1_n_n_wf : DotDims.WF S128x2 S2x512 S128x512 [1] [0] [0] [1] [] []
  dot_S32x512_S512x512_S32x512_1_0_0_1_n_n_wf : DotDims.WF S32x512 S512x512 S32x512 [1] [0] [0] [1] [] []
  dot_S32x2_S2x512_S32x512_1_0_0_1_n_n_wf : DotDims.WF S32x2 S2x512 S32x512 [1] [0] [0] [1] [] []
  dot_S4096x512_S512x256_S4096x256_1_0_0_1_n_n_wf : DotDims.WF S4096x512 S512x256 S4096x256 [1] [0] [0] [1] [] []
  dot_S4096x256_S256x4_S4096x4_1_0_0_1_n_n_wf : DotDims.WF S4096x256 S256x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S8x128x512.size a
  hwx0_0 : ∀ i : grid0.Coords, EltTy.bits .f32 = 32 ∨ (Rect.block (s := S8x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S8x128x512.size a
  hwx0_1 : ∀ i : grid0.Coords, EltTy.bits .f32 = 32 ∨ (Rect.block (s := S8x128x512) S1x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2.size a ≤ S8x128x2.size a
  hwx0_2 : ∀ i : grid0.Coords, EltTy.bits .f32 = 32 ∨ (Rect.block (s := S8x128x2) S1x128x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x2.size a ≤ S8x128x2.size a
  hwx0_3 : ∀ i : grid0.Coords, EltTy.bits .f32 = 32 ∨ (Rect.block (s := S8x128x2) S1x32x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1026x512.size a ≤ S1026x512.size a
  hwx0_4 : ∀ i : grid0.Coords, EltTy.bits .f32 = 32 ∨ (Rect.block (s := S1026x512) S1026x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S256x4.size a
  hwx0_8 : ∀ i : grid0.Coords, EltTy.bits .f32 = 32 ∨ (Rect.block (s := S256x4) S256x4.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4.size a ≤ S4.size a
  hwx0_9 : ∀ i : grid0.Coords, EltTy.bits .f32 = 32 ∨ (Rect.block (s := S4) S4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128x128.size a ≤ S8x128x512.size a
  hwx0_10 : ∀ i : grid0.Coords, EltTy.bits .f32 = 32 ∨ (Rect.block (s := S8x128x512) S1x128x128.size (cc0_transform_10 i) (hinb0_10 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x2_S2x512_S128x512_1_0_0_1_n_n : DotDims S128x2 S2x512 S128x512 where
  lhsContracting := [1]
  rhsContracting := [0]
  lhsNonContracting := [0]
  rhsNonContracting := [1]
  lhsBatch := []
  rhsBatch := []
  wf := dot_S128x2_S2x512_S128x512_1_0_0_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x2_S2x512_S32x512_1_0_0_1_n_n : DotDims S32x2 S2x512 S32x512 where
  lhsContracting := [1]
  rhsContracting := [0]
  lhsNonContracting := [0]
  rhsNonContracting := [1]
  lhsBatch := []
  rhsBatch := []
  wf := dot_S32x2_S2x512_S32x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x4_S4096x4_1_0_0_1_n_n : DotDims S4096x256 S256x4 S4096x4 where
  lhsContracting := [1]
  rhsContracting := [0]
  lhsNonContracting := [0]
  rhsNonContracting := [1]
  lhsBatch := []
  rhsBatch := []
  wf := dot_S4096x256_S256x4_S4096x4_1_0_0_1_n_n_wf

abbrev win0_0 : Pipeline.Window sig grid0 :=
  Pipeline.Window.ofSpec (Memref.whole main_arg0) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x32x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1026x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256x4.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S1x128x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x128x512 : Shape := ⟨3, ![8, 128, 512]⟩
abbrev S8x128x2 : Shape := ⟨3, ![8, 128, 2]⟩
abbrev S1026x512 : Shape := ⟨2, ![1026, 512]⟩
abbrev S512 : Shape := ⟨1, ![512]⟩
abbrev S512x256 : Shape := ⟨2, ![512, 256]⟩
abbrev S256 : Shape := ⟨1, ![256]⟩
abbrev S256x4 : Shape := ⟨2, ![256, 4]⟩
abbrev S4 : Shape := ⟨1, ![4]⟩
abbrev S512x512 : Shape := ⟨2, ![512, 512]⟩
abbrev S2x512 : Shape := ⟨2, ![2, 512]⟩
abbrev S8x128x1x2 : Shape := ⟨4, ![8, 128, 1, 2]⟩
abbrev S8x1x128x2 : Shape := ⟨4, ![8, 1, 128, 2]⟩
abbrev S8x128x128x2 : Shape := ⟨4, ![8, 128, 128, 2]⟩
abbrev S8x128x1x512 : Shape := ⟨4, ![8, 128, 1, 512]⟩
abbrev S8x1x128x512 : Shape := ⟨4, ![8, 1, 128, 512]⟩
abbrev S8x128x128x512 : Shape := ⟨4, ![8, 128, 128, 512]⟩
abbrev S1x1x1x512 : Shape := ⟨4, ![1, 1, 1, 512]⟩
abbrev S_ : Shape := ⟨0, ![]⟩
abbrev S8x128x128x256 : Shape := ⟨4, ![8, 128, 128, 256]⟩
abbrev S1x1x1x256 : Shape := ⟨4, ![1, 1, 1, 256]⟩
abbrev S8x128x128x4 : Shape := ⟨4, ![8, 128, 128, 4]⟩
abbrev S1x1x1x4 : Shape := ⟨4, ![1, 1, 1, 4]⟩

abbrev nBuf : Space → Nat
  | .hbm => 42
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8x128x2, .f32⟩
  | .hbm, ⟨2, _⟩ => ⟨S1026x512, .f32⟩
  | .hbm, ⟨3, _⟩ => ⟨S512, .f32⟩
  | .hbm, ⟨4, _⟩ => ⟨S512x256, .f32⟩
  | .hbm, ⟨5, _⟩ => ⟨S256, .f32⟩
  | .hbm, ⟨6, _⟩ => ⟨S256x4, .f32⟩
  | .hbm, ⟨7, _⟩ => ⟨S4, .f32⟩
  | .hbm, ⟨8, _⟩ => ⟨S512x512, .f32⟩
  | .hbm, ⟨9, _⟩ => ⟨S512x512, .f32⟩
  | .hbm, ⟨10, _⟩ => ⟨S2x512, .f32⟩
  | .hbm, ⟨11, _⟩ => ⟨S8x128x512, .f32⟩
  | .hbm, ⟨12, _⟩ => ⟨S8x128x512, .f32⟩
  | .hbm, ⟨13, _⟩ => ⟨S8x128x1x2, .f32⟩
  | .hbm, ⟨14, _⟩ => ⟨S8x1x128x2, .f32⟩
  | .hbm, ⟨15, _⟩ => ⟨S8x128x128x2, .f32⟩
  | .hbm, ⟨16, _⟩ => ⟨S8x128x128x2, .f32⟩
  | .hbm, ⟨17, _⟩ => ⟨S8x128x128x2, .f32⟩
  | .hbm, ⟨18, _⟩ => ⟨S8x128x1x512, .f32⟩
  | .hbm, ⟨19, _⟩ => ⟨S8x1x128x512, .f32⟩
  | .hbm, ⟨20, _⟩ => ⟨S8x128x128x512, .f32⟩
  | .hbm, ⟨21, _⟩ => ⟨S8x128x128x512, .f32⟩
  | .hbm, ⟨22, _⟩ => ⟨S8x128x128x512, .f32⟩
  | .hbm, ⟨23, _⟩ => ⟨S8x128x128x512, .f32⟩
  | .hbm, ⟨24, _⟩ => ⟨S8x128x128x512, .f32⟩
  | .hbm, ⟨25, _⟩ => ⟨S1x1x1x512, .f32⟩
  | .hbm, ⟨26, _⟩ => ⟨S8x128x128x512, .f32⟩
  | .hbm, ⟨27, _⟩ => ⟨S8x128x128x512, .f32⟩
  | .hbm, ⟨28, _⟩ => ⟨S_, .f32⟩
  | .hbm, ⟨29, _⟩ => ⟨S8x128x128x512, .f32⟩
  | .hbm, ⟨30, _⟩ => ⟨S8x128x128x512, .f32⟩
  | .hbm, ⟨31, _⟩ => ⟨S8x128x128x256, .f32⟩
  | .hbm, ⟨32, _⟩ => ⟨S1x1x1x256, .f32⟩
  | .hbm, ⟨33, _⟩ => ⟨S8x128x128x256, .f32⟩
  | .hbm, ⟨34, _⟩ => ⟨S8x128x128x256, .f32⟩
  | .hbm, ⟨35, _⟩ => ⟨S_, .f32⟩
  | .hbm, ⟨36, _⟩ => ⟨S8x128x128x256, .f32⟩
  | .hbm, ⟨37, _⟩ => ⟨S8x128x128x256, .f32⟩
  | .hbm, ⟨38, _⟩ => ⟨S8x128x128x4, .f32⟩
  | .hbm, ⟨39, _⟩ => ⟨S1x1x1x4, .f32⟩
  | .hbm, ⟨40, _⟩ => ⟨S8x128x128x4, .f32⟩
  | .hbm, ⟨41, _⟩ => ⟨S8x128x128x4, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call1_cst : Ref sig .tc := ⟨.hbm, 35, rfl⟩
abbrev main_call1_v0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  slices_S1026x512_S512x512_0_0 : S1026x512.Slices ![0, 0] S512x512
  slices_S1026x512_S512x512_512_0 : S1026x512.Slices ![512, 0] S512x512
  slices_S1026x512_S2x512_1024_0 : S1026x512.Slices ![1024, 0] S2x512
  bcast_S8x128x2_S8x128x1x2_0_1_3 : S8x128x2.BroadcastsInDim S8x128x1x2 (![0, 1, 3] : Fin 3 → Fin S8x128x1x2.rank)
  bcast_S8x128x2_S8x1x128x2_0_2_3 : S8x128x2.BroadcastsInDim S8x1x128x2 (![0, 2, 3] : Fin 3 → Fin S8x1x128x2.rank)
  bcast_S8x128x1x2_S8x128x128x2_0_1_2_3 : S8x128x1x2.BroadcastsInDim S8x128x128x2 (![0, 1, 2, 3] : Fin 4 → Fin S8x128x128x2.rank)
  bcast_S8x1x128x2_S8x128x128x2_0_1_2_3 : S8x1x128x2.BroadcastsInDim S8x128x128x2 (![0, 1, 2, 3] : Fin 4 → Fin S8x128x128x2.rank)
  bcast_S8x128x512_S8x128x1x512_0_1_3 : S8x128x512.BroadcastsInDim S8x128x1x512 (![0, 1, 3] : Fin 3 → Fin S8x128x1x512.rank)
  bcast_S8x128x512_S8x1x128x512_0_2_3 : S8x128x512.BroadcastsInDim S8x1x128x512 (![0, 2, 3] : Fin 3 → Fin S8x1x128x512.rank)
  bcast_S8x128x1x512_S8x128x128x512_0_1_2_3 : S8x128x1x512.BroadcastsInDim S8x128x128x512 (![0, 1, 2, 3] : Fin 4 → Fin S8x128x128x512.rank)
  bcast_S8x1x128x512_S8x128x128x512_0_1_2_3 : S8x1x128x512.BroadcastsInDim S8x128x128x512 (![0, 1, 2, 3] : Fin 4 → Fin S8x128x128x512.rank)
  bcast_S512_S1x1x1x512_3 : S512.BroadcastsInDim S1x1x1x512 (![3] : Fin 1 → Fin S1x1x1x512.rank)
  bcast_S1x1x1x512_S8x128x128x512_0_1_2_3 : S1x1x1x512.BroadcastsInDim S8x128x128x512 (![0, 1, 2, 3] : Fin 4 → Fin S8x128x128x512.rank)
  bcast_S_S8x128x128x512 : S_.BroadcastsInDim S8x128x128x512 (![] : Fin 0 → Fin S8x128x128x512.rank)
  bcast_S256_S1x1x1x256_3 : S256.BroadcastsInDim S1x1x1x256 (![3] : Fin 1 → Fin S1x1x1x256.rank)
  bcast_S1x1x1x256_S8x128x128x256_0_1_2_3 : S1x1x1x256.BroadcastsInDim S8x128x128x256 (![0, 1, 2, 3] : Fin 4 → Fin S8x128x128x256.rank)
  bcast_S_S8x128x128x256 : S_.BroadcastsInDim S8x128x128x256 (![] : Fin 0 → Fin S8x128x128x256.rank)
  bcast_S4_S1x1x1x4_3 : S4.BroadcastsInDim S1x1x1x4 (![3] : Fin 1 → Fin S1x1x1x4.rank)
  bcast_S1x1x1x4_S8x128x128x4_0_1_2_3 : S1x1x1x4.BroadcastsInDim S8x128x128x4 (![0, 1, 2, 3] : Fin 4 → Fin S8x128x128x4.rank)
  dot_S8x128x512_S512x512_S8x128x512_2_0_01_1_n_n_wf : DotDims.WF S8x128x512 S512x512 S8x128x512 [2] [0] [0, 1] [1] [] []
  dot_S8x128x128x2_S2x512_S8x128x128x512_3_0_012_1_n_n_wf : DotDims.WF S8x128x128x2 S2x512 S8x128x128x512 [3] [0] [0, 1, 2] [1] [] []
  dot_S8x128x128x512_S512x256_S8x128x128x256_3_0_012_1_n_n_wf : DotDims.WF S8x128x128x512 S512x256 S8x128x128x256 [3] [0] [0, 1, 2] [1] [] []
  dot_S8x128x128x256_S256x4_S8x128x128x4_3_0_012_1_n_n_wf : DotDims.WF S8x128x128x256 S256x4 S8x128x128x4 [3] [0] [0, 1, 2] [1] [] []

variable [Facts₀]

def dot_S8x128x512_S512x512_S8x128x512_2_0_01_1_n_n : DotDims S8x128x512 S512x512 S8x128x512 where
  lhsContracting := [2]
  rhsContracting := [0]
  lhsNonContracting := [0, 1]
  rhsNonContracting := [1]
  lhsBatch := []
  rhsBatch := []
  wf := dot_S8x128x512_S512x512_S8x128x512_2_0_01_1_n_n_wf
def dot_S8x128x128x2_S2x512_S8x128x128x512_3_0_012_1_n_n : DotDims S8x128x128x2 S2x512 S8x128x128x512 where
  lhsContracting := [3]
  rhsContracting := [0]
  lhsNonContracting := [0, 1, 2]
  rhsNonContracting := [1]
  lhsBatch := []
  rhsBatch := []
  wf := dot_S8x128x128x2_S2x512_S8x128x128x512_3_0_012_1_n_n_wf
def dot_S8x128x128x512_S512x256_S8x128x128x256_3_0_012_1_n_n : DotDims S8x128x128x512 S512x256 S8x128x128x256 where
  lhsContracting := [3]
  rhsContracting := [0]
  lhsNonContracting := [0, 1, 2]
  rhsNonContracting := [1]
  lhsBatch := []
  rhsBatch := []
  wf := dot_S8x128x128x512_S512x256_S8x128x128x256_3_0_012_1_n_n_wf
def dot_S8x128x128x256_S256x4_S8x128x128x4_3_0_012_1_n_n : DotDims S8x128x128x256 S256x4 S8x128x128x4 where
  lhsContracting := [3]
  rhsContracting := [0]
  lhsNonContracting := [0, 1, 2]
  rhsNonContracting := [1]
  lhsBatch := []
  rhsBatch := []
  wf := dot_S8x128x128x256_S256x4_S8x128x128x4_3_0_012_1_n_n_wf

class Facts : Prop extends Facts₀ where

variable [Facts]
-- ==== Proof.BodyBits.lean ====
import proofs.«116609_j48808008351770_2_alg».proof.Proof.Gen.Kernel.Launch
import proofs.«116609_j48808008351770_2_alg».proof.Proof.Gen.Kernel.Skeleton
import proofs.«116609_j48808008351770_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and writes

The body reads each of its ten input buffers whole — the three row blocks of the first weight matrix as three
rectangles of one buffer — and writes its output buffer whole, once. -/

abbrev r0 : Rect S1x128x512 := Rect.unit (s := S1x128x512) ![0, 0, 0] S1x128x512.size inb_S1x128x512_S1x128x512_0_0_0
abbrev r1 : Rect S1x32x512 := Rect.unit (s := S1x32x512) ![0, 0, 0] S1x32x512.size inb_S1x32x512_S1x32x512_0_0_0
abbrev r2 : Rect S1x128x2 := Rect.unit (s := S1x128x2) ![0, 0, 0] S1x128x2.size inb_S1x128x2_S1x128x2_0_0_0
abbrev r3 : Rect S1x32x2 := Rect.unit (s := S1x32x2) ![0, 0, 0] S1x32x2.size inb_S1x32x2_S1x32x2_0_0_0
abbrev r4a : Rect S1026x512 := Rect.unit (s := S1026x512) ![0, 0] S512x512.size inb_S1026x512_S512x512_0_0
abbrev r4b : Rect S1026x512 := Rect.unit (s := S1026x512) ![512, 0] S512x512.size inb_S1026x512_S512x512_512_0
abbrev r4c : Rect S1026x512 := Rect.unit (s := S1026x512) ![1024, 0] S2x512.size inb_S1026x512_S2x512_1024_0
abbrev r5 : Rect S512 := Rect.unit (s := S512) ![0] S512.size inb_S512_S512_0
abbrev r6 : Rect S512x256 := Rect.unit (s := S512x256) ![0, 0] S512x256.size inb_S512x256_S512x256_0_0
abbrev r7 : Rect S256 := Rect.unit (s := S256) ![0] S256.size inb_S256_S256_0
abbrev r8 : Rect S256x4 := Rect.unit (s := S256x4) ![0, 0] S256x4.size inb_S256x4_S256x4_0_0
abbrev r9 : Rect S4 := Rect.unit (s := S4) ![0] S4.size inb_S4_S4_0
abbrev r10 : Rect S1x128x128 := Rect.unit (s := S1x128x128) ![0, 0, 0] S1x128x128.size inb_S1x128x128_S1x128x128_0_0_0

/-- What the output buffer holds after the body, as a function of what the ten input buffers hold: the one stored
    value, the three-layer network of the 128 rows against the block's 32 columns, laid out as 128 rows of 32 × 4
    entries. -/
def out10 (x0 : Vec F S1x128x512 .f32) (x1 : Vec F S1x32x512 .f32) (x2 : Vec F S1x128x2 .f32) (x3 : Vec F S1x32x2 .f32) (x4 : Vec F S1026x512 .f32) (x5 : Vec F S512 .f32) (x6 : Vec F S512x256 .f32) (x7 : Vec F S256 .f32) (x8 : Vec F S256x4 .f32) (x9 : Vec F S4 .f32) :
    Vec F S1x128x128 .f32 :=
  View.canon [⟨r10, k0_pay1 (k0_pay2 (View.ld x0 r0) (View.ld x1 r1) (View.ld x2 r2) (View.ld x3 r3) (View.ld x4 r4a) (View.ld x4 r4b) (View.ld x4 r4c) (View.ld x5 r5))
    (Scalar.ofBits .f32 0x00000000#32) (View.ld x6 r6) (View.ld x7 r7) (View.ld x8 r8) (View.ld x9 r9)⟩]

/-- The one store covers the output buffer. -/
theorem cover10 (p0 : Vec F S1x128x128 .f32) (y : S1x128x128.Idx) :
    ∃ pc ∈ ([⟨r10, p0⟩] : List (View.Piece (Elt F) S1x128x128 .f32)), y ∈ pc.1.set :=
  View.cover_of_tiled [⟨r10, p0⟩] S1x128x128.size (by rfl) y

set_option maxHeartbeats 4000000 in
/-- The body, run on whole buffers holding `x0 … x9` and an output buffer holding anything, ends with the inputs
    as they were and the output buffer at `out10` of them. -/
theorem sound_kernel (c : Dev nD) (E : Set ℕ) (i : grid0.Coords)
    (arg2 : Memref sig .tc .vmem S1x128x512 .f32) (harg2 : arg2.IsWhole)
    (arg3 : Memref sig .tc .vmem S1x32x512 .f32) (harg3 : arg3.IsWhole)
    (arg4 : Memref sig .tc .vmem S1x128x2 .f32) (harg4 : arg4.IsWhole)
    (arg5 : Memref sig .tc .vmem S1x32x2 .f32) (harg5 : arg5.IsWhole)
    (arg6 : Memref sig .tc .vmem S1026x512 .f32) (harg6 : arg6.IsWhole)
    (arg7 : Memref sig .tc .vmem S512 .f32) (harg7 : arg7.IsWhole)
    (arg8 : Memref sig .tc .vmem S512x256 .f32) (harg8 : arg8.IsWhole)
    (arg9 : Memref sig .tc .vmem S256 .f32) (harg9 : arg9.IsWhole)
    (arg10 : Memref sig .tc .vmem S256x4 .f32) (harg10 : arg10.IsWhole)
    (arg11 : Memref sig .tc .vmem S4 .f32) (harg11 : arg11.IsWhole)
    (arg12 : Memref sig .tc .vmem S1x128x128 .f32) (harg12 : arg12.IsWhole)
    (x0 : Vec F S1x128x512 .f32) (x1 : Vec F S1x32x512 .f32) (x2 : Vec F S1x128x2 .f32) (x3 : Vec F S1x32x2 .f32) (x4 : Vec F S1026x512 .f32) (x5 : Vec F S512 .f32) (x6 : Vec F S512x256 .f32) (x7 : Vec F S256 .f32) (x8 : Vec F S256x4 .f32) (x9 : Vec F S4 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out10 x0 x1 x2 x3 x4 x5 x6 x7 x8 x9)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

variable (m : (ℓ : Loc nD τ sig) → Buf (Elt F) ℓ) (ρ : Dev nD → PrngReg)

/-! ## The arrays as the region finds them, and the blocks

No host operation precedes the region: every array is found as launched. -/

abbrev V0 (c : Dev nD) : Valuation τ sig (Elt F) := StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block at every point: where it was just fetched, and also where
it was not, the block index not having moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The proof data

Two windows read the feature array and two the position array: each of the two holds HALF the share of the
array, which is enough to read it and lets no one write it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

end Cert.Kernel.Body

end
-- ==== Proof.RunBits.lean ====
/-
  The run of the program: the region, then the one host line that reshapes the output array into the result.

  The region's windows do not all sit on different arrays: two of them read the feature array (the 128 rows of the
  batch element, and the 32 rows of the current column block) and two read the position array likewise. An array
  read by two windows is dealt to them in halves: a half share is enough to read, and nobody holds the right to
  write. Each of the remaining arrays is held whole by its one window, the output array by the output window.
  After the last grid point the halves are back, the output array is what the write-backs made of it, and the host
  line runs holding just the output array and the result buffer.
-/
import proofs.«116609_j48808008351770_2_alg».proof.Proof.BodyBits

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare.left := by
  unfold Dat.share; rw [if_neg (by decide)]; dsimp only [dats]
theorem share3 (c : Dev nD) : (dats m 0 c).share 3 = fullShare.right := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_neg (by decide)]; dsimp only [dats]
theorem share6 (c : Dev nD) : (dats m 0 c).share 6 = fullShare := by
  unfold Dat.share; rw [if_neg (by decide)]; dsimp only [dats]
theorem share7 (c : Dev nD) : (dats m 0 c).share 7 = fullShare := by
  unfold Dat.share; rw [if_neg (by decide)]; dsimp only [dats]
theorem share8 (c : Dev nD) : (dats m 0 c).share 8 = fullShare := by
  unfold Dat.share; rw [if_neg (by decide)]; dsimp only [dats]
theorem share9 (c : Dev nD) : (dats m 0 c).share 9 = fullShare := by
  unfold Dat.share; rw [if_neg (by decide)]; dsimp only [dats]
theorem share10 (c : Dev nD) : (dats m 0 c).share 10 = fullShare := by
  unfold Dat.share; rw [if_pos (by decide)]

/-- The windows' arrays at contents `G w`, window by window, each at its share. -/
theorem arrays_eq (c : Dev nD) (G : (w : Fin cfg0.W) → Buf (Elt F) ((cfg0.win w).arr.view.loc (c.tc : Thread nD τ))) :
    ((dats m 0 c).arrays G : sProp 𝕄)
      = bigSep Finset.univ fun w : Fin 11 => (((c.tc : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one. -/
theorem arrBufs_eq (c : Dev nD) : (Pipeline.arrBufs spec0 c (V m c) : sProp 𝕄)
    = iprop((((c.tc : Thread nD τ).loc main_arg0) ↦{fullShare} V m c main_arg0) ∗ (((c.tc : Thread nD τ).loc main_arg1) ↦{fullShare} V m c main_arg1)
      ∗ (((c.tc : Thread nD τ).loc main_arg2) ↦{fullShare} V m c main_arg2) ∗ (((c.tc : Thread nD τ).loc main_arg3) ↦{fullShare} V m c main_arg3)
      ∗ (((c.tc : Thread nD τ).loc main_arg4) ↦{fullShare} V m c main_arg4) ∗ (((c.tc : Thread nD τ).loc main_arg5) ↦{fullShare} V m c main_arg5)
      ∗ (((c.tc : Thread nD τ).loc main_arg6) ↦{fullShare} V m c main_arg6) ∗ (((c.tc : Thread nD τ).loc main_arg7) ↦{fullShare} V m c main_arg7)
      ∗ (((c.tc : Thread nD τ).loc main_v0) ↦{fullShare} V m c main_v0)) :=
  bigSep_eq_bigSepL_of_eq [main_arg0, main_arg1, main_arg2, main_arg3, main_arg4, main_arg5, main_arg6, main_arg7, main_v0] (by decide) (by decide) _

theorem hsplit (c : Dev nD) : (Pipeline.arrBufs spec0 c (V m c) : sProp 𝕄) ⊢ (dats m 0 c).arrays ((dats m 0 c).arrAt · 0) := by
  rw [arrays_eq, arrBufs_eq, bigSep_W0]
  rw [share0, share1, share2, share3, share4, share5, share6, share7, share8, share9, share10]
  iintro ⟨A0, A1, A2, A3, A4, A5, A6, A7, A8⟩
  ihave A0' := (pointsTo_share (PosShare.mem_left_op_right fullShare)).1 $$ A0
  icases A0' with ⟨A0l, A0r⟩
  ihave A1' := (pointsTo_share (PosShare.mem_left_op_right fullShare)).1 $$ A1
  icases A1' with ⟨A1l, A1r⟩
  isplitl [A0l]; · iexact A0l
  isplitl [A0r]; · iexact A0r
  isplitl [A1l]; · iexact A1l
  isplitl [A1r]; · iexact A1r
  isplitl [A2]; · iexact A2
  isplitl [A3]; · iexact A3
  isplitl [A4]; · iexact A4
  isplitl [A5]; · iexact A5
  isplitl [A6]; · iexact A6
  isplitl [A7]; · iexact A7
  iexact A8

/-! ## The line after the region

After the region one host line reshapes the output array into the result buffer. It reads the output array, which
only the output window holds (whole), and writes the result buffer, which bypassed the region. -/

/-- The two buffers that line touches. -/
abbrev tailSet : Finset (DevRef τ sig) := [Proc.devRef .tc main_v0, Proc.devRef .tc main_v1].toFinset

/-- The buffers' contents when the region is left: as launched, but for the output array. -/
def W1 (c : Dev nD) : Valuation τ sig (Elt F) :=
  Function.update (V0 m c) (Proc.devRef .tc main_v0) ((dats m 0 c).arrAt 10 cfg0.N)

/-- And after the line. -/
def Wfin (c : Dev nD) : Valuation τ sig (Elt F) := StableHlo.after (hostOps1 (F := F)) (W1 m c)

theorem W1_v0 (c : Dev nD) : W1 m c (Proc.devRef .tc main_v0) = (dats m 0 c).arrAt 10 cfg0.N := by
  unfold W1; rw [Function.update_self]

theorem W1_v1 (c : Dev nD) : W1 m c (Proc.devRef .tc main_v1) = V m c main_v1 := by
  unfold W1; rw [Function.update_of_ne (StableHlo.devRef_ne_of_ne (by decide))]

theorem held_tail (c : Dev nD) (W : Valuation τ sig (Elt F)) :
    (StableHlo.held (c.tc : Thread nD τ) tailSet W : sProp 𝕄)
      = iprop((((c.tc : Thread nD τ).loc main_v0) ↦{fullShare} W (Proc.devRef .tc main_v0)) ∗ (((c.tc : Thread nD τ).loc main_v1) ↦{fullShare} W (Proc.devRef .tc main_v1))) :=
  bigSep_eq_bigSepL_of_eq [Proc.devRef .tc main_v0, Proc.devRef .tc main_v1] rfl (by decide) _

theorem Wfin_v0 (c : Dev nD) : Wfin m c (Proc.devRef .tc main_v0) = (dats m 0 c).arrAt 10 cfg0.N := by
  unfold Wfin
  rw [StableHlo.after_of_forall_not_mem (b := Proc.devRef .tc main_v0) _ _ (List.forall_iff_forall_mem.mp (by
    simp only [hostOps1, List.Forall, StableHlo.reshape_writes, Finset.mem_singleton]
    exact StableHlo.devRef_ne_of_ne (by decide)))]
  exact W1_v0 m c

abbrev Zin (c : Dev nD) : sProp 𝕄 :=
  Pipeline.unscopedRestP (Ix := Unit) (Name := ℕ) (U := UR sig nD τ) (Lvl := ℕ) Pipeline.Prefetch.none spec0 c (V m c)
abbrev Zout (c : Dev nD) : sProp 𝕄 :=
  Pipeline.unscopedRestP (Ix := Unit) (Name := ℕ) (U := UR sig nD τ) (Lvl := ℕ) Pipeline.Prefetch.none spec0 c (fun b => Wfin m c (Proc.devRef .tc b))

theorem Zin_eq (c : Dev nD) : Zin m c = iprop((((c.tc : Thread nD τ).loc main_v1) ↦{fullShare} V m c main_v1 : sProp 𝕄)) := by
  unfold Zin; rw [Pipeline.unscopedRestP_none, unscopedRest0_eq]
theorem Zout_eq (c : Dev nD) : Zout m c = iprop((((c.tc : Thread nD τ).loc main_v1) ↦{fullShare} Wfin m c (Proc.devRef .tc main_v1) : sProp 𝕄)) := by
  unfold Zout; rw [Pipeline.unscopedRestP_none, unscopedRest0_eq]

set_option backward.isDefEq.respectTransparency.types false in
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  have hseq := Pipeline.wp_seqs_then (Ix := Unit) (Name := ℕ) (U := UR sig nD τ) (Lvl := ℕ) (fun q => Cfg.toPCfg (Val := Elt F) (cfgs q)) (defs₀ (F := F)) Variants.none c tailSet [] (K := Q') [hostOps1]
    (by
      intro ops hops op hop
      simp only [List.mem_cons, List.mem_nil_iff, _root_.or_false] at hops
      subst hops
      simp only [hostOps1, List.mem_cons, List.mem_nil_iff, _root_.or_false] at hop
      subst hop
      rw [StableHlo.reshape_bufs]
      intro b hb
      simpa [tailSet] using hb)
    (by
      intro ops hops op hop
      simp only [List.mem_cons, List.mem_nil_iff, _root_.or_false] at hops
      subst hops
      simp only [hostOps1, List.mem_cons, List.mem_nil_iff, _root_.or_false] at hop
      subst hop
      rfl)
    (W1 m c)
  simp only [List.map_cons, List.map_nil, List.append_nil, List.flatten_cons, List.flatten_nil] at hseq
  rw [show StableHlo.after (hostOps1 (F := F)) (W1 m c) = Wfin m c from rfl] at hseq
  rw [arrays_eq, bigSep_W0, Zin_eq, Zout_eq, share10]
  iintro ⟨Hk, Hb, ⟨B0, B1, B2, B3, B4, B5, B6, B7, B8, B9, B10⟩, Hz⟩
  iapply hseq $$ [Hb B10 Hz]
  · rw [held_tail, W1_v0, W1_v1]
    isplitl [Hb]; · iexact Hb
    isplitl [B10]; · iexact B10
    iexact Hz
  rw [held_tail, Wfin_v0]
  iintro ⟨Hb, B10, Hz⟩
  rw [Pipeline.chain_nil]
  iapply (Pipeline.tail_ret (fun q => Cfg.toPCfg (Val := Elt F) (cfgs q)) _ _ c _ _ _ Q') $$ [Hk Hb B0 B1 B2 B3 B4 B5 B6 B7 B8 B9 B10 Hz]
  isplitl [Hk]; · iexact Hk
  isplitl [Hb]; · iexact Hb
  isplitr [Hz]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  iexact Hz

/-! ## The run -/

/-- What every run ends with: each window's array at what the write-backs leave of it, and the result buffer at the
    reshape of the output array. -/
def RunPost (r : PUnit × MemSt nD τ sig (Elt F)) : Prop :=
  ∀ c : Dev nD, (∀ w : Fin cfg0.W, r.2.mem ((spec0 w).arr.view.loc (c.tc : Thread nD τ)) = (dats m 0 c).arrAt w cfg0.N)
    ∧ r.2.mem ((c.tc : Thread nD τ).loc main_v1) = Wfin m c (Proc.devRef .tc main_v1)

set_option backward.isDefEq.respectTransparency.types false in
/-- From any memory with zero counters every weakly fair execution of the program terminates without a fault, in a
    state satisfying `RunPost`. -/
theorem run_main : θ_run defs (onTc (τ := τ) (main (F := F))) (s₀ m ρ) (RunPost m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wfin m c (Proc.devRef .tc b))
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b) (fun b => Wfin m c (Proc.devRef .tc b)) s')
      isplitl [HU] <;> iassumption)
    (hQ := fun s h c => ⟨(h c).1, (h c).2.2 main_v1 (by decide)⟩)

/-- The argument arrays end as they began: each is read through input windows only, and an input window's array
    is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).1 0).trans ((dats m 0 c).arrAt_in 0 rfl _), ((h c).1 2).trans ((dats m 0 c).arrAt_in 2 rfl _),
     ((h c).1 4).trans ((dats m 0 c).arrAt_in 4 rfl _), ((h c).1 5).trans ((dats m 0 c).arrAt_in 5 rfl _),
     ((h c).1 6).trans ((dats m 0 c).arrAt_in 6 rfl _), ((h c).1 7).trans ((dats m 0 c).arrAt_in 7 rfl _),
     ((h c).1 8).trans ((dats m 0 c).arrAt_in 8 rfl _), ((h c).1 9).trans ((dats m 0 c).arrAt_in 9 rfl _)⟩) (run_main m ρ)

end Cert.Kernel.Run

end
-- ==== Proof.BodyIdeal.lean ====
import proofs.«116609_j48808008351770_2_alg».proof.Proof.Gen.KernelIdeal.Launch
import proofs.«116609_j48808008351770_2_alg».proof.Proof.Gen.KernelIdeal.Skeleton
import proofs.«116609_j48808008351770_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body reads and writes

The body reads each of its ten input buffers whole — the three row blocks of the first weight matrix as three
rectangles of one buffer — and writes its output buffer whole, once. -/

abbrev r0 : Rect S1x128x512 := Rect.unit (s := S1x128x512) ![0, 0, 0] S1x128x512.size inb_S1x128x512_S1x128x512_0_0_0
abbrev r1 : Rect S1x32x512 := Rect.unit (s := S1x32x512) ![0, 0, 0] S1x32x512.size inb_S1x32x512_S1x32x512_0_0_0
abbrev r2 : Rect S1x128x2 := Rect.unit (s := S1x128x2) ![0, 0, 0] S1x128x2.size inb_S1x128x2_S1x128x2_0_0_0
abbrev r3 : Rect S1x32x2 := Rect.unit (s := S1x32x2) ![0, 0, 0] S1x32x2.size inb_S1x32x2_S1x32x2_0_0_0
abbrev r4a : Rect S1026x512 := Rect.unit (s := S1026x512) ![0, 0] S512x512.size inb_S1026x512_S512x512_0_0
abbrev r4b : Rect S1026x512 := Rect.unit (s := S1026x512) ![512, 0] S512x512.size inb_S1026x512_S512x512_512_0
abbrev r4c : Rect S1026x512 := Rect.unit (s := S1026x512) ![1024, 0] S2x512.size inb_S1026x512_S2x512_1024_0
abbrev r5 : Rect S512 := Rect.unit (s := S512) ![0] S512.size inb_S512_S512_0
abbrev r6 : Rect S512x256 := Rect.unit (s := S512x256) ![0, 0] S512x256.size inb_S512x256_S512x256_0_0
abbrev r7 : Rect S256 := Rect.unit (s := S256) ![0] S256.size inb_S256_S256_0
abbrev r8 : Rect S256x4 := Rect.unit (s := S256x4) ![0, 0] S256x4.size inb_S256x4_S256x4_0_0
abbrev r9 : Rect S4 := Rect.unit (s := S4) ![0] S4.size inb_S4_S4_0
abbrev r10 : Rect S1x128x128 := Rect.unit (s := S1x128x128) ![0, 0, 0] S1x128x128.size inb_S1x128x128_S1x128x128_0_0_0

/-- What the output buffer holds after the body, as a function of what the ten input buffers hold: the one stored
    value, the three-layer network of the 128 rows against the block's 32 columns, laid out as 128 rows of 32 × 4
    entries. -/
def out10 (x0 : Vec F S1x128x512 .f32) (x1 : Vec F S1x32x512 .f32) (x2 : Vec F S1x128x2 .f32) (x3 : Vec F S1x32x2 .f32) (x4 : Vec F S1026x512 .f32) (x5 : Vec F S512 .f32) (x6 : Vec F S512x256 .f32) (x7 : Vec F S256 .f32) (x8 : Vec F S256x4 .f32) (x9 : Vec F S4 .f32) :
    Vec F S1x128x128 .f32 :=
  View.canon [⟨r10, k0_pay1 (k0_pay2 (View.ld x0 r0) (View.ld x1 r1) (View.ld x2 r2) (View.ld x3 r3) (View.ld x4 r4a) (View.ld x4 r4b) (View.ld x4 r4c) (View.ld x5 r5))
    (Scalar.ofBits .f32 0x00000000#32) (View.ld x6 r6) (View.ld x7 r7) (View.ld x8 r8) (View.ld x9 r9)⟩]

/-- The one store covers the output buffer. -/
theorem cover10 (p0 : Vec F S1x128x128 .f32) (y : S1x128x128.Idx) :
    ∃ pc ∈ ([⟨r10, p0⟩] : List (View.Piece (Elt F) S1x128x128 .f32)), y ∈ pc.1.set :=
  View.cover_of_tiled [⟨r10, p0⟩] S1x128x128.size (by rfl) y

set_option maxHeartbeats 4000000 in
/-- The body, run on whole buffers holding `x0 … x9` and an output buffer holding anything, ends with the inputs
    as they were and the output buffer at `out10` of them. -/
theorem sound_kernel (c : Dev nD) (E : Set ℕ) (i : grid0.Coords)
    (arg2 : Memref sig .tc .vmem S1x128x512 .f32) (harg2 : arg2.IsWhole)
    (arg3 : Memref sig .tc .vmem S1x32x512 .f32) (harg3 : arg3.IsWhole)
    (arg4 : Memref sig .tc .vmem S1x128x2 .f32) (harg4 : arg4.IsWhole)
    (arg5 : Memref sig .tc .vmem S1x32x2 .f32) (harg5 : arg5.IsWhole)
    (arg6 : Memref sig .tc .vmem S1026x512 .f32) (harg6 : arg6.IsWhole)
    (arg7 : Memref sig .tc .vmem S512 .f32) (harg7 : arg7.IsWhole)
    (arg8 : Memref sig .tc .vmem S512x256 .f32) (harg8 : arg8.IsWhole)
    (arg9 : Memref sig .tc .vmem S256 .f32) (harg9 : arg9.IsWhole)
    (arg10 : Memref sig .tc .vmem S256x4 .f32) (harg10 : arg10.IsWhole)
    (arg11 : Memref sig .tc .vmem S4 .f32) (harg11 : arg11.IsWhole)
    (arg12 : Memref sig .tc .vmem S1x128x128 .f32) (harg12 : arg12.IsWhole)
    (x0 : Vec F S1x128x512 .f32) (x1 : Vec F S1x32x512 .f32) (x2 : Vec F S1x128x2 .f32) (x3 : Vec F S1x32x2 .f32) (x4 : Vec F S1026x512 .f32) (x5 : Vec F S512 .f32) (x6 : Vec F S512x256 .f32) (x7 : Vec F S256 .f32) (x8 : Vec F S256x4 .f32) (x9 : Vec F S4 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (out10 x0 x1 x2 x3 x4 x5 x6 x7 x8 x9)) -∗ K ⟨⟩))
      ⊢ wp frame (wpE (defs₀ (F := F)) Variants.none c none) E
          (cc0__kernel i arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _)

variable (m : (ℓ : Loc nD τ sig) → Buf (Elt F) ℓ) (ρ : Dev nD → PrngReg)

/-! ## The arrays as the region finds them, and the blocks

No host operation precedes the region: every array is found as launched. -/

abbrev V0 (c : Dev nD) : Valuation τ sig (Elt F) := StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

/-- Window `w`'s block at grid point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block at every point: where it was just fetched, and also where
it was not, the block index not having moved since the last fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The proof data

Two windows read the feature array and two the position array: each of the two holds HALF the share of the
array, which is enough to read it and lets no one write it. -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.RunIdeal.lean ====
/-
  The run of the program: the region, then the one host line that reshapes the output array into the result.

  The region's windows do not all sit on different arrays: two of them read the feature array (the 128 rows of the
  batch element, and the 32 rows of the current column block) and two read the position array likewise. An array
  read by two windows is dealt to them in halves: a half share is enough to read, and nobody holds the right to
  write. Each of the remaining arrays is held whole by its one window, the output array by the output window.
  After the last grid point the halves are back, the output array is what the write-backs made of it, and the host
  line runs holding just the output array and the result buffer.
-/
import proofs.«116609_j48808008351770_2_alg».proof.Proof.BodyIdeal

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] trivial trivial main_chain

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare.left := by
  unfold Dat.share; rw [if_neg (by decide)]; dsimp only [dats]
theorem share3 (c : Dev nD) : (dats m 0 c).share 3 = fullShare.right := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_neg (by decide)]; dsimp only [dats]
theorem share6 (c : Dev nD) : (dats m 0 c).share 6 = fullShare := by
  unfold Dat.share; rw [if_neg (by decide)]; dsimp only [dats]
theorem share7 (c : Dev nD) : (dats m 0 c).share 7 = fullShare := by
  unfold Dat.share; rw [if_neg (by decide)]; dsimp only [dats]
theorem share8 (c : Dev nD) : (dats m 0 c).share 8 = fullShare := by
  unfold Dat.share; rw [if_neg (by decide)]; dsimp only [dats]
theorem share9 (c : Dev nD) : (dats m 0 c).share 9 = fullShare := by
  unfold Dat.share; rw [if_neg (by decide)]; dsimp only [dats]
theorem share10 (c : Dev nD) : (dats m 0 c).share 10 = fullShare := by
  unfold Dat.share; rw [if_pos (by decide)]

/-- The windows' arrays at contents `G w`, window by window, each at its share. -/
theorem arrays_eq (c : Dev nD) (G : (w : Fin cfg0.W) → Buf (Elt F) ((cfg0.win w).arr.view.loc (c.tc : Thread nD τ))) :
    ((dats m 0 c).arrays G : sProp 𝕄)
      = bigSep Finset.univ fun w : Fin 11 => (((c.tc : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one. -/
theorem arrBufs_eq (c : Dev nD) : (Pipeline.arrBufs spec0 c (V m c) : sProp 𝕄)
    = iprop((((c.tc : Thread nD τ).loc main_arg0) ↦{fullShare} V m c main_arg0) ∗ (((c.tc : Thread nD τ).loc main_arg1) ↦{fullShare} V m c main_arg1)
      ∗ (((c.tc : Thread nD τ).loc main_arg2) ↦{fullShare} V m c main_arg2) ∗ (((c.tc : Thread nD τ).loc main_arg3) ↦{fullShare} V m c main_arg3)
      ∗ (((c.tc : Thread nD τ).loc main_arg4) ↦{fullShare} V m c main_arg4) ∗ (((c.tc : Thread nD τ).loc main_arg5) ↦{fullShare} V m c main_arg5)
      ∗ (((c.tc : Thread nD τ).loc main_arg6) ↦{fullShare} V m c main_arg6) ∗ (((c.tc : Thread nD τ).loc main_arg7) ↦{fullShare} V m c main_arg7)
      ∗ (((c.tc : Thread nD τ).loc main_v0) ↦{fullShare} V m c main_v0)) :=
  bigSep_eq_bigSepL_of_eq [main_arg0, main_arg1, main_arg2, main_arg3, main_arg4, main_arg5, main_arg6, main_arg7, main_v0] (by decide) (by decide) _

theorem hsplit (c : Dev nD) : (Pipeline.arrBufs spec0 c (V m c) : sProp 𝕄) ⊢ (dats m 0 c).arrays ((dats m 0 c).arrAt · 0) := by
  rw [arrays_eq, arrBufs_eq, bigSep_W0]
  rw [share0, share1, share2, share3, share4, share5, share6, share7, share8, share9, share10]
  iintro ⟨A0, A1, A2, A3, A4, A5, A6, A7, A8⟩
  ihave A0' := (pointsTo_share (PosShare.mem_left_op_right fullShare)).1 $$ A0
  icases A0' with ⟨A0l, A0r⟩
  ihave A1' := (pointsTo_share (PosShare.mem_left_op_right fullShare)).1 $$ A1
  icases A1' with ⟨A1l, A1r⟩
  isplitl [A0l]; · iexact A0l
  isplitl [A0r]; · iexact A0r
  isplitl [A1l]; · iexact A1l
  isplitl [A1r]; · iexact A1r
  isplitl [A2]; · iexact A2
  isplitl [A3]; · iexact A3
  isplitl [A4]; · iexact A4
  isplitl [A5]; · iexact A5
  isplitl [A6]; · iexact A6
  isplitl [A7]; · iexact A7
  iexact A8

/-! ## The line after the region

After the region one host line reshapes the output array into the result buffer. It reads the output array, which
only the output window holds (whole), and writes the result buffer, which bypassed the region. -/

/-- The two buffers that line touches. -/
abbrev tailSet : Finset (DevRef τ sig) := [Proc.devRef .tc main_v0, Proc.devRef .tc main_v1].toFinset

/-- The buffers' contents when the region is left: as launched, but for the output array. -/
def W1 (c : Dev nD) : Valuation τ sig (Elt F) :=
  Function.update (V0 m c) (Proc.devRef .tc main_v0) ((dats m 0 c).arrAt 10 cfg0.N)

/-- And after the line. -/
def Wfin (c : Dev nD) : Valuation τ sig (Elt F) := StableHlo.after (hostOps1 (F := F)) (W1 m c)

theorem W1_v0 (c : Dev nD) : W1 m c (Proc.devRef .tc main_v0) = (dats m 0 c).arrAt 10 cfg0.N := by
  unfold W1; rw [Function.update_self]

theorem W1_v1 (c : Dev nD) : W1 m c (Proc.devRef .tc main_v1) = V m c main_v1 := by
  unfold W1; rw [Function.update_of_ne (StableHlo.devRef_ne_of_ne (by decide))]

theorem held_tail (c : Dev nD) (W : Valuation τ sig (Elt F)) :
    (StableHlo.held (c.tc : Thread nD τ) tailSet W : sProp 𝕄)
      = iprop((((c.tc : Thread nD τ).loc main_v0) ↦{fullShare} W (Proc.devRef .tc main_v0)) ∗ (((c.tc : Thread nD τ).loc main_v1) ↦{fullShare} W (Proc.devRef .tc main_v1))) :=
  bigSep_eq_bigSepL_of_eq [Proc.devRef .tc main_v0, Proc.devRef .tc main_v1] rfl (by decide) _

theorem Wfin_v0 (c : Dev nD) : Wfin m c (Proc.devRef .tc main_v0) = (dats m 0 c).arrAt 10 cfg0.N := by
  unfold Wfin
  rw [StableHlo.after_of_forall_not_mem (b := Proc.devRef .tc main_v0) _ _ (List.forall_iff_forall_mem.mp (by
    simp only [hostOps1, List.Forall, StableHlo.reshape_writes, Finset.mem_singleton]
    exact StableHlo.devRef_ne_of_ne (by decide)))]
  exact W1_v0 m c

abbrev Zin (c : Dev nD) : sProp 𝕄 :=
  Pipeline.unscopedRestP (Ix := Unit) (Name := ℕ) (U := UR sig nD τ) (Lvl := ℕ) Pipeline.Prefetch.none spec0 c (V m c)
abbrev Zout (c : Dev nD) : sProp 𝕄 :=
  Pipeline.unscopedRestP (Ix := Unit) (Name := ℕ) (U := UR sig nD τ) (Lvl := ℕ) Pipeline.Prefetch.none spec0 c (fun b => Wfin m c (Proc.devRef .tc b))

theorem Zin_eq (c : Dev nD) : Zin m c = iprop((((c.tc : Thread nD τ).loc main_v1) ↦{fullShare} V m c main_v1 : sProp 𝕄)) := by
  unfold Zin; rw [Pipeline.unscopedRestP_none, unscopedRest0_eq]
theorem Zout_eq (c : Dev nD) : Zout m c = iprop((((c.tc : Thread nD τ).loc main_v1) ↦{fullShare} Wfin m c (Proc.devRef .tc main_v1) : sProp 𝕄)) := by
  unfold Zout; rw [Pipeline.unscopedRestP_none, unscopedRest0_eq]

set_option backward.isDefEq.respectTransparency.types false in
theorem htail (c : Dev nD) (Q' : PUnit → sProp 𝕄) :
    iprop((iprop((dats m 0 c).arrays ((dats m 0 c).arrAt · cfg0.N) ∗ Zout m c) -∗ Q' ⟨⟩)
        ∗ boundary (c.tc : Thread nD τ) ∗ (dats m 0 c).arrays ((dats m 0 c).arrAt · cfg0.N) ∗ Zin m c)
      ⊢ wp frame (wpE (Pipeline.defs (fun q => Cfg.toPCfg (Val := Elt F) (cfgs q)) defs₀) (Variants.lift Variants.none) (c.tc : Thread nD τ) none) Set.univ
          (Pipeline.chain [StableHlo.seq hostOps1]) Q' := by
  have hseq := Pipeline.wp_seqs_then (Ix := Unit) (Name := ℕ) (U := UR sig nD τ) (Lvl := ℕ) (fun q => Cfg.toPCfg (Val := Elt F) (cfgs q)) (defs₀ (F := F)) Variants.none c tailSet [] (K := Q') [hostOps1]
    (by
      intro ops hops op hop
      simp only [List.mem_cons, List.mem_nil_iff, _root_.or_false] at hops
      subst hops
      simp only [hostOps1, List.mem_cons, List.mem_nil_iff, _root_.or_false] at hop
      subst hop
      rw [StableHlo.reshape_bufs]
      intro b hb
      simpa [tailSet] using hb)
    (by
      intro ops hops op hop
      simp only [List.mem_cons, List.mem_nil_iff, _root_.or_false] at hops
      subst hops
      simp only [hostOps1, List.mem_cons, List.mem_nil_iff, _root_.or_false] at hop
      subst hop
      rfl)
    (W1 m c)
  simp only [List.map_cons, List.map_nil, List.append_nil, List.flatten_cons, List.flatten_nil] at hseq
  rw [show StableHlo.after (hostOps1 (F := F)) (W1 m c) = Wfin m c from rfl] at hseq
  rw [arrays_eq, bigSep_W0, Zin_eq, Zout_eq, share10]
  iintro ⟨Hk, Hb, ⟨B0, B1, B2, B3, B4, B5, B6, B7, B8, B9, B10⟩, Hz⟩
  iapply hseq $$ [Hb B10 Hz]
  · rw [held_tail, W1_v0, W1_v1]
    isplitl [Hb]; · iexact Hb
    isplitl [B10]; · iexact B10
    iexact Hz
  rw [held_tail, Wfin_v0]
  iintro ⟨Hb, B10, Hz⟩
  rw [Pipeline.chain_nil]
  iapply (Pipeline.tail_ret (fun q => Cfg.toPCfg (Val := Elt F) (cfgs q)) _ _ c _ _ _ Q') $$ [Hk Hb B0 B1 B2 B3 B4 B5 B6 B7 B8 B9 B10 Hz]
  isplitl [Hk]; · iexact Hk
  isplitl [Hb]; · iexact Hb
  isplitr [Hz]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact B10
  iexact Hz

/-! ## The run -/

/-- What every run ends with: each window's array at what the write-backs leave of it, and the result buffer at the
    reshape of the output array. -/
def RunPost (r : PUnit × MemSt nD τ sig (Elt F)) : Prop :=
  ∀ c : Dev nD, (∀ w : Fin cfg0.W, r.2.mem ((spec0 w).arr.view.loc (c.tc : Thread nD τ)) = (dats m 0 c).arrAt w cfg0.N)
    ∧ r.2.mem ((c.tc : Thread nD τ).loc main_v1) = Wfin m c (Proc.devRef .tc main_v1)

set_option backward.isDefEq.respectTransparency.types false in
/-- From any memory with zero counters every weakly fair execution of the program terminates without a fault, in a
    state satisfying `RunPost`. -/
theorem run_main : θ_run defs (onTc (τ := τ) (main (F := F))) (s₀ m ρ) (RunPost m) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := Zin m) (Z' := Zout m)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr]; · iexact Hr
      iexact Hp)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = Wfin m c (Proc.devRef .tc b))
    (hY := fun c s' => by
      iintro ⟨-, HU, HSI⟩
      unfold Zout Pipeline.unscopedRestP
      imodintro
      iapply (pointsTo_read_all (Pipeline.restRefsP sig Pipeline.Prefetch.none spec0) (fun b => (c.tc : Thread nD τ).loc b) (fun b => Wfin m c (Proc.devRef .tc b)) s')
      isplitl [HU] <;> iassumption)
    (hQ := fun s h c => ⟨(h c).1, (h c).2.2 main_v1 (by decide)⟩)

/-- The argument arrays end as they began: each is read through input windows only, and an input window's array
    is never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨((h c).1 0).trans ((dats m 0 c).arrAt_in 0 rfl _), ((h c).1 2).trans ((dats m 0 c).arrAt_in 2 rfl _),
     ((h c).1 4).trans ((dats m 0 c).arrAt_in 4 rfl _), ((h c).1 5).trans ((dats m 0 c).arrAt_in 5 rfl _),
     ((h c).1 6).trans ((dats m 0 c).arrAt_in 6 rfl _), ((h c).1 7).trans ((dats m 0 c).arrAt_in 7 rfl _),
     ((h c).1 8).trans ((dats m 0 c).arrAt_in 8 rfl _), ((h c).1 9).trans ((dats m 0 c).arrAt_in 9 rfl _)⟩) (run_main m ρ)

end Cert.KernelIdeal.Run

end
-- ==== Proof.Spec.lean ====
/-
  The function both programs compute, for one ordered pair of points (i, j) of one batch element.

  Write a, c for the feature rows of i and j (512 entries each), u, v for their position rows (2 entries each),
  Wa, Wb, Wc for the three row blocks of the first weight matrix (512, 512 and 2 rows of 512 entries) and b1 for
  the first bias. The first hidden layer is the positive part of

      a·Wa + c·Wb + (u − v)·Wc + b1 .

  The two programs arrange this sum differently. One adds a row term (a·Wa + u·Wc) + b1, which depends on i only,
  to a column term c·Wb − v·Wc, which depends on j only (`hidK`); the other adds a·Wa + c·Wb first, then the
  product of the position difference with Wc, then the bias (`hidR`). On the extended reals the two agree as soon
  as the position rows and Wc hold real numbers: (u − v)·w = u·w − v·w needs no more than that, and the rest is a
  regrouping of a sum, which holds for all extended reals.

  Everything after the first hidden layer — a second affine layer, its positive part, a third affine layer — is the
  same in both programs and is kept as one function `tail` of the hidden vector.
-/
import Idealize.ShloMosaic.PureOps.Ideal
import Mathlib.Algebra.BigOperators.Fin

noncomputable section

namespace Cert.Spec

open scoped BigOperators

/-- First hidden layer, row term plus column term: max(((a·Wa + u·Wc) + b1) + (c·Wb − v·Wc), 0) at entry k. -/
def hidK (a c : Fin 512 → EReal) (u v : Fin 2 → EReal) (Wa Wb : Fin 512 → Fin 512 → EReal) (Wc : Fin 2 → Fin 512 → EReal)
    (b1 : Fin 512 → EReal) (k : Fin 512) : EReal :=
  max ((((∑ d : Fin 512, a d * Wa d k) + (∑ p : Fin 2, u p * Wc p k)) + b1 k)
        + ((∑ d : Fin 512, c d * Wb d k) - (∑ p : Fin 2, v p * Wc p k))) 0

/-- First hidden layer, position difference first: max(((a·Wa + c·Wb) + (u − v)·Wc) + b1, 0) at entry k. -/
def hidR (a c : Fin 512 → EReal) (u v : Fin 2 → EReal) (Wa Wb : Fin 512 → Fin 512 → EReal) (Wc : Fin 2 → Fin 512 → EReal)
    (b1 : Fin 512 → EReal) (k : Fin 512) : EReal :=
  max ((((∑ d : Fin 512, a d * Wa d k) + (∑ d : Fin 512, c d * Wb d k)) + (∑ p : Fin 2, (u p - v p) * Wc p k)) + b1 k) 0

/-- The two later layers applied to a hidden vector h: (max(h·W2 + b2, 0))·W3 + b3 at output entry o. -/
def tail (W2 : Fin 512 → Fin 256 → EReal) (b2 : Fin 256 → EReal) (W3 : Fin 256 → Fin 4 → EReal) (b3 : Fin 4 → EReal)
    (h : Fin 512 → EReal) (o : Fin 4) : EReal :=
  (∑ l : Fin 256, max ((∑ k : Fin 512, h k * W2 k l) + b2 l) 0 * W3 l o) + b3 o

end Cert.Spec

end
-- ==== Proof.RefHidden.lean ====
/-
  The reference program's first hidden layer, read one entry at a time.

  The reference cuts the first weight matrix W1 (1026 rows of 512 entries) into three row blocks: rows 0–511 (Wa), rows 512–1023 (Wb)
  and rows 1024–1025 (Wc). For a batch element b and a pair of points (i, j) it forms features[b,i]·Wa and features[b,j]·Wb, spreads
  the first along j and the second along i, adds them, adds the product of the position difference positions[b,i] − positions[b,j]
  with Wc, adds the bias b1, and takes the positive part. Every intermediate array is either a matrix product with one contracted
  axis, an entrywise operation, or a re-indexing (a slice of rows, a broadcast along a new axis), so the entry at (b, i, j, k) is
  found by following the index back through the re-indexings to the argument arrays. The outcome is the specification's `hidR`:
  max(((a·Wa + c·Wb) + (u − v)·Wc) + b1, 0) at entry k, with a, c the feature rows of i and j and u, v their position rows.
-/
import proofs.«116609_j48808008351770_2_alg».proof.Proof.Gen.ReferenceIdeal.Read
import proofs.«116609_j48808008351770_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open scoped BigOperators

variable (A0 : (⟨S8x128x512, .f32⟩ : BufTy).Contents (Elt Ideal)) (A1 : (⟨S8x128x2, .f32⟩ : BufTy).Contents (Elt Ideal))
    (A2 : (⟨S1026x512, .f32⟩ : BufTy).Contents (Elt Ideal)) (A3 : (⟨S512, .f32⟩ : BufTy).Contents (Elt Ideal))

/-- The first hidden layer of the pair (i, j) of batch element b, as a vector of 512 entries, in the reference's arrangement:
    A0 holds the features, A1 the positions, A2 the first weight matrix (its three row blocks start at rows 0, 512 and 1024),
    A3 the first bias. -/
def hidden (b : Fin 8) (i j : Fin 128) : Fin 512 → EReal :=
  Cert.Spec.hidR (fun d => A0 (ix3 b i d)) (fun d => A0 (ix3 b j d)) (fun p => A1 (ix3 b i p)) (fun p => A1 (ix3 b j p))
    (fun d k => A2 (ix2 (⟨d.val, by omega⟩ : Fin 1026) k)) (fun d k => A2 (ix2 (⟨512 + d.val, by omega⟩ : Fin 1026) k))
    (fun p k => A2 (ix2 (⟨1024 + p.val, by omega⟩ : Fin 1026) k)) (fun k => A3 (ix1 k))

/-- The array the reference holds after its first positive part, at the entry (b, i, j, k), is entry k of `hidden b i j`.
    The eight index equations say where each re-indexing chain lands: the row term reads features[b, i, ·] and row d of W1, the
    column term reads features[b, j, ·] and row 512 + d, the position term reads positions[b, i, ·], positions[b, j, ·] and row
    1024 + p, the bias is read at k. The zero of the positive part is the float word 0, which is the real number 0. -/
theorem hidden_apply (b : Fin 8) (i j : Fin 128) (k : Fin 512) :
    val_main_v20 (F := Ideal) A0 A1 A2 A3 (ix4 b i j k) = hidden A0 A1 A2 A3 b i j k := by
  have ea : ∀ d : Fin 512, lidx_main_v3 (idx_main_v10 (idx_main_v12 (ix4 b i j k))) d = ix3 b i d := fun d =>
    funext fun a => Fin.ext (by match a with | ⟨0, _⟩ => rfl | ⟨1, _⟩ => rfl | ⟨2, _⟩ => rfl)
  have eWa : ∀ d : Fin 512, idx_main_v0 (ridx_main_v3 (idx_main_v10 (idx_main_v12 (ix4 b i j k))) d)
      = ix2 (⟨d.val, by omega⟩ : Fin 1026) k := fun d =>
    funext fun a => Fin.ext (by match a with | ⟨0, _⟩ => rfl | ⟨1, _⟩ => rfl)
  have ec : ∀ d : Fin 512, lidx_main_v4 (idx_main_v11 (idx_main_v13 (ix4 b i j k))) d = ix3 b j d := fun d =>
    funext fun a => Fin.ext (by match a with | ⟨0, _⟩ => rfl | ⟨1, _⟩ => rfl | ⟨2, _⟩ => rfl)
  have eWb : ∀ d : Fin 512, idx_main_v1 (ridx_main_v4 (idx_main_v11 (idx_main_v13 (ix4 b i j k))) d)
      = ix2 (⟨512 + d.val, by omega⟩ : Fin 1026) k := fun d =>
    funext fun a => Fin.ext (by match a with | ⟨0, _⟩ => rfl | ⟨1, _⟩ => rfl)
  have eu : ∀ p : Fin 2, idx_main_v5 (idx_main_v7 (lidx_main_v15 (ix4 b i j k) p)) = ix3 b i p := fun p =>
    funext fun a => Fin.ext (by match a with | ⟨0, _⟩ => rfl | ⟨1, _⟩ => rfl | ⟨2, _⟩ => rfl)
  have ev : ∀ p : Fin 2, idx_main_v6 (idx_main_v8 (lidx_main_v15 (ix4 b i j k) p)) = ix3 b j p := fun p =>
    funext fun a => Fin.ext (by match a with | ⟨0, _⟩ => rfl | ⟨1, _⟩ => rfl | ⟨2, _⟩ => rfl)
  have eWc : ∀ p : Fin 2, idx_main_v2 (ridx_main_v15 (ix4 b i j k) p)
      = ix2 (⟨1024 + p.val, by omega⟩ : Fin 1026) k := fun p =>
    funext fun a => Fin.ext (by match a with | ⟨0, _⟩ => rfl | ⟨1, _⟩ => rfl)
  have eb : idx_main_v17 (idx_main_v18 (ix4 b i j k)) = ix1 k :=
    funext fun a => Fin.ext (by match a with | ⟨0, _⟩ => rfl)
  rw [val_main_v20_apply, val_main_v19_apply, val_main_v16_apply, val_main_v14_apply,
    val_main_v12_apply, val_main_v10_apply, val_main_v3_apply,
    val_main_v13_apply, val_main_v11_apply, val_main_v4_apply,
    val_main_v15_apply, val_main_v18_apply, val_main_v17_apply,
    val_main_call0_v0_apply, val_main_call0_cst_apply]
  simp only [val_main_v0_apply, val_main_v1_apply, val_main_v2_apply, val_main_v9_apply, val_main_v7_apply,
    val_main_v5_apply, val_main_v8_apply, val_main_v6_apply, ea, eWa, ec, eWb, eu, ev, eWc, eb,
    Ideal.addf_def, Ideal.subf_def, Ideal.maximumf_def, Ideal.ofBits_def, Ideal.ofBits_zero_f32]
  rfl

end Cert.ReferenceIdeal.RefValue

end
-- ==== Proof.RefValue.lean ====
/-
  The reference program's result, read one entry at a time, and its run.

  After the first hidden layer h = `hidden b i j` (512 entries for each pair (i, j) of each batch element b) the reference applies a
  second affine layer and its positive part, max(h·W2 + b2, 0), and a third affine layer, ·W3 + b3. Both products contract the last
  axis only and both biases are spread along the three leading axes, so the entry (b, i, j, o) of the result depends on h alone:
  it is the specification's `tail` of h at o. Together with the hidden layer this gives every entry of the result as one closed
  expression in the eight argument arrays; `refOut` collects these entries into the whole array, and `run_spec` says that every
  weakly fair execution of the reference ends with the result buffer holding `refOut` of the arguments and the arguments unchanged.
-/
import proofs.«116609_j48808008351770_2_alg».proof.Proof.RefHidden

noncomputable section

namespace Cert.ReferenceIdeal.RefValue

open Cert.ReferenceIdeal Cert.ReferenceIdeal.Gen Cert.ReferenceIdeal.Read Idealize.ShloMosaic Idealize.ShloMosaic.ValueIdx
open scoped BigOperators

open Idealize.ShloMosaic.TcCoe Idealize.SL.Sem Idealize.ShloMosaic.StableHlo

variable (A0 : (⟨S8x128x512, .f32⟩ : BufTy).Contents (Elt Ideal)) (A1 : (⟨S8x128x2, .f32⟩ : BufTy).Contents (Elt Ideal))
    (A2 : (⟨S1026x512, .f32⟩ : BufTy).Contents (Elt Ideal)) (A3 : (⟨S512, .f32⟩ : BufTy).Contents (Elt Ideal))
    (A4 : (⟨S512x256, .f32⟩ : BufTy).Contents (Elt Ideal)) (A5 : (⟨S256, .f32⟩ : BufTy).Contents (Elt Ideal))
    (A6 : (⟨S256x4, .f32⟩ : BufTy).Contents (Elt Ideal)) (A7 : (⟨S4, .f32⟩ : BufTy).Contents (Elt Ideal))

/-- The second layer after its positive part, at the entry (b, i, j, l): max(h·W2 + b2, 0) at l, with h the hidden vector of the
    pair. A4 holds W2 and A5 holds b2; the product contracts the hidden axis k. -/
theorem layer2_apply (b : Fin 8) (i j : Fin 128) (l : Fin 256) :
    val_main_v25 (F := Ideal) A0 A1 A2 A3 A4 A5 (ix4 b i j l) =
      max ((∑ k : Fin 512, hidden A0 A1 A2 A3 b i j k * A4 (ix2 k l)) + A5 (ix1 l)) 0 := by
  have eh : ∀ k : Fin 512, lidx_main_v21 (ix4 b i j l) k = ix4 b i j k := fun k =>
    funext fun a => Fin.ext (by match a with | ⟨0, _⟩ => rfl | ⟨1, _⟩ => rfl | ⟨2, _⟩ => rfl | ⟨3, _⟩ => rfl)
  have eW : ∀ k : Fin 512, ridx_main_v21 (ix4 b i j l) k = ix2 k l := fun k =>
    funext fun a => Fin.ext (by match a with | ⟨0, _⟩ => rfl | ⟨1, _⟩ => rfl)
  have eb : idx_main_v22 (idx_main_v23 (ix4 b i j l)) = ix1 l :=
    funext fun a => Fin.ext (by match a with | ⟨0, _⟩ => rfl)
  rw [val_main_v25_apply, val_main_v24_apply, val_main_v21_apply, val_main_v23_apply, val_main_v22_apply,
    val_main_call1_v0_apply, val_main_call1_cst_apply]
  simp only [eh, eW, eb, hidden_apply, Ideal.addf_def, Ideal.maximumf_def, Ideal.ofBits_def, Ideal.ofBits_zero_f32]

/-- The reference's result at the entry (b, i, j, o): the two later layers of the specification applied to the reference's
    arrangement of the first hidden layer. A0 … A7 are the features, the positions, W1, b1, W2, b2, W3, b3. -/
theorem result_apply (b : Fin 8) (i j : Fin 128) (o : Fin 4) :
    val_main_v29 (F := Ideal) A0 A1 A2 A3 A4 A5 A6 A7 (ix4 b i j o) =
      Cert.Spec.tail (fun k l => A4 (ix2 k l)) (fun l => A5 (ix1 l)) (fun l o => A6 (ix2 l o)) (fun o => A7 (ix1 o))
        (Cert.Spec.hidR (fun d => A0 (ix3 b i d)) (fun d => A0 (ix3 b j d)) (fun p => A1 (ix3 b i p)) (fun p => A1 (ix3 b j p))
          (fun d k => A2 (ix2 (⟨d.val, by omega⟩ : Fin 1026) k)) (fun d k => A2 (ix2 (⟨512 + d.val, by omega⟩ : Fin 1026) k))
          (fun p k => A2 (ix2 (⟨1024 + p.val, by omega⟩ : Fin 1026) k)) (fun k => A3 (ix1 k))) o := by
  have eh : ∀ l : Fin 256, lidx_main_v26 (ix4 b i j o) l = ix4 b i j l := fun l =>
    funext fun a => Fin.ext (by match a with | ⟨0, _⟩ => rfl | ⟨1, _⟩ => rfl | ⟨2, _⟩ => rfl | ⟨3, _⟩ => rfl)
  have eW : ∀ l : Fin 256, ridx_main_v26 (ix4 b i j o) l = ix2 l o := fun l =>
    funext fun a => Fin.ext (by match a with | ⟨0, _⟩ => rfl | ⟨1, _⟩ => rfl)
  have eb : idx_main_v27 (idx_main_v28 (ix4 b i j o)) = ix1 o :=
    funext fun a => Fin.ext (by match a with | ⟨0, _⟩ => rfl)
  rw [val_main_v29_apply, val_main_v26_apply, val_main_v28_apply, val_main_v27_apply]
  simp only [eh, eW, eb, layer2_apply, Ideal.addf_def]
  rfl

/-- The whole result array as one function of an index: its entry at (b, i, j, o) is the right-hand side of `result_apply`. -/
def refOut : (⟨S8x128x128x4, .f32⟩ : BufTy).Contents (Elt Ideal) := fun idx =>
  Cert.Spec.tail (fun k l => A4 (ix2 k l)) (fun l => A5 (ix1 l)) (fun l o => A6 (ix2 l o)) (fun o => A7 (ix1 o))
    (Cert.Spec.hidR (fun d => A0 (ix3 (idx 0 : Fin 8) (idx 1 : Fin 128) d)) (fun d => A0 (ix3 (idx 0 : Fin 8) (idx 2 : Fin 128) d))
      (fun p => A1 (ix3 (idx 0 : Fin 8) (idx 1 : Fin 128) p)) (fun p => A1 (ix3 (idx 0 : Fin 8) (idx 2 : Fin 128) p))
      (fun d k => A2 (ix2 (⟨d.val, by omega⟩ : Fin 1026) k)) (fun d k => A2 (ix2 (⟨512 + d.val, by omega⟩ : Fin 1026) k))
      (fun p k => A2 (ix2 (⟨1024 + p.val, by omega⟩ : Fin 1026) k)) (fun k => A3 (ix1 k))) (idx 3 : Fin 4)

/-- `refOut` at an index given by its four coordinates. -/
theorem refOut_apply (b : Fin 8) (i j : Fin 128) (o : Fin 4) :
    refOut A0 A1 A2 A3 A4 A5 A6 A7 (ix4 b i j o) =
      Cert.Spec.tail (fun k l => A4 (ix2 k l)) (fun l => A5 (ix1 l)) (fun l o => A6 (ix2 l o)) (fun o => A7 (ix1 o))
        (Cert.Spec.hidR (fun d => A0 (ix3 b i d)) (fun d => A0 (ix3 b j d)) (fun p => A1 (ix3 b i p)) (fun p => A1 (ix3 b j p))
          (fun d k => A2 (ix2 (⟨d.val, by omega⟩ : Fin 1026) k)) (fun d k => A2 (ix2 (⟨512 + d.val, by omega⟩ : Fin 1026) k))
          (fun p k => A2 (ix2 (⟨1024 + p.val, by omega⟩ : Fin 1026) k)) (fun k => A3 (ix1 k))) o := rfl

/-- The reference's last stage is `refOut`, as whole arrays: every index is given by its four coordinates. -/
theorem result_eq : val_main_v29 (F := Ideal) A0 A1 A2 A3 A4 A5 A6 A7 = refOut A0 A1 A2 A3 A4 A5 A6 A7 := by
  funext idx
  obtain ⟨b, i, j, o, rfl⟩ : ∃ (b : Fin 8) (i j : Fin 128) (o : Fin 4), idx = ix4 b i j o :=
    ⟨idx 0, idx 1, idx 2, idx 3, eq_ix4 idx⟩
  exact (result_apply A0 A1 A2 A3 A4 A5 A6 A7 b i j o).trans (refOut_apply A0 A1 A2 A3 A4 A5 A6 A7 b i j o).symm

/-- The reference's run: from any memory with zero counters every weakly fair execution terminates, on every device the result
    buffer holds `refOut` of the eight argument arrays as the run found them, and the argument arrays are unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) =
          refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((val_main_v29_eq _ _ _ _ _ _ _ _).trans (result_eq _ _ _ _ _ _ _ _)), (h c).2⟩)
    (Cert.ReferenceIdeal.Value.run (F := Ideal) m ρ)

end Cert.ReferenceIdeal.RefValue

end
-- ==== Proof.Bridge.lean ====
/-
  The two arrangements of the first hidden layer agree.

  Fix an output entry k and write A = a·Wa, C = c·Wb (arbitrary extended reals), B = b1 k, and
  P = u·Wc, Q = v·Wc for the two position products. When the position rows and Wc hold real numbers,
  P and Q are real and (u − v)·Wc = P − Q by distributivity in the reals. What remains is

      ((A + P) + B) + (C − Q) = ((A + C) + (P − Q)) + B ,

  which is a regrouping of a sum: writing x − y as x + (−y), both sides are the sum of the same five
  terms A, P, B, C, −Q, and addition on the extended reals is commutative and associative (with no
  side condition on A, B, C, which may be infinite).
-/
import proofs.«116609_j48808008351770_2_alg».proof.Proof.Spec

noncomputable section

namespace Cert.Spec

open scoped BigOperators

/-- Regrouping: ((A + P) + B) + (C − Q) = ((A + C) + (P − Q)) + B for extended reals A, B, C and real P, Q. -/
theorem regroup (A B C : EReal) (P Q : ℝ) :
    ((A + (P : EReal)) + B) + (C - (Q : EReal)) = ((A + C) + ((P - Q : ℝ) : EReal)) + B := by
  rw [EReal.coe_sub]
  simp only [sub_eq_add_neg]
  ac_rfl

/-- With real position rows and a real Wc, the two position products are real numbers P and Q, and the
    product of the position difference with Wc is P − Q. -/
theorem pos_sums (u v : Fin 2 → EReal) (Wc : Fin 2 → Fin 512 → EReal) (k : Fin 512)
    (hu : ∀ p, ∃ r : ℝ, u p = (r : EReal)) (hv : ∀ p, ∃ r : ℝ, v p = (r : EReal))
    (hW : ∀ p k, ∃ r : ℝ, Wc p k = (r : EReal)) :
    ∃ P Q : ℝ, (∑ p : Fin 2, u p * Wc p k) = (P : EReal) ∧ (∑ p : Fin 2, v p * Wc p k) = (Q : EReal) ∧
      (∑ p : Fin 2, (u p - v p) * Wc p k) = ((P - Q : ℝ) : EReal) := by
  choose ru hru using hu
  choose rv hrv using hv
  choose rw hrw using hW
  refine ⟨ru 0 * rw 0 k + ru 1 * rw 1 k, rv 0 * rw 0 k + rv 1 * rw 1 k, ?_, ?_, ?_⟩
  · simp only [Fin.sum_univ_two, hru, hrw, ← EReal.coe_mul, ← EReal.coe_add]
  · simp only [Fin.sum_univ_two, hrv, hrw, ← EReal.coe_mul, ← EReal.coe_add]
  · simp only [Fin.sum_univ_two, hru, hrv, hrw, ← EReal.coe_sub, ← EReal.coe_mul, ← EReal.coe_add]
    congr 1
    ring

/-- The row-plus-column arrangement and the difference-first arrangement of the first hidden layer are the
    same function, as soon as the position rows and Wc hold real numbers. The feature rows, Wa, Wb and the
    bias are arbitrary extended reals. -/
theorem hidK_eq_hidR (a c : Fin 512 → EReal) (u v : Fin 2 → EReal) (Wa Wb : Fin 512 → Fin 512 → EReal)
    (Wc : Fin 2 → Fin 512 → EReal) (b1 : Fin 512 → EReal)
    (hu : ∀ p, ∃ r : ℝ, u p = (r : EReal)) (hv : ∀ p, ∃ r : ℝ, v p = (r : EReal))
    (hW : ∀ p k, ∃ r : ℝ, Wc p k = (r : EReal)) :
    hidK a c u v Wa Wb Wc b1 = hidR a c u v Wa Wb Wc b1 := by
  funext k
  obtain ⟨P, Q, hP, hQ, hPQ⟩ := pos_sums u v Wc k hu hv hW
  unfold hidK hidR
  rw [hP, hQ, hPQ, regroup]

/-- The later layers see the same hidden vector, so the two full pair functions agree. -/
theorem tail_hidK_eq_tail_hidR (W2 : Fin 512 → Fin 256 → EReal) (b2 : Fin 256 → EReal) (W3 : Fin 256 → Fin 4 → EReal)
    (b3 : Fin 4 → EReal) (a c : Fin 512 → EReal) (u v : Fin 2 → EReal) (Wa Wb : Fin 512 → Fin 512 → EReal)
    (Wc : Fin 2 → Fin 512 → EReal) (b1 : Fin 512 → EReal)
    (hu : ∀ p, ∃ r : ℝ, u p = (r : EReal)) (hv : ∀ p, ∃ r : ℝ, v p = (r : EReal))
    (hW : ∀ p k, ∃ r : ℝ, Wc p k = (r : EReal)) (o : Fin 4) :
    tail W2 b2 W3 b3 (hidK a c u v Wa Wb Wc b1) o = tail W2 b2 W3 b3 (hidR a c u v Wa Wb Wc b1) o :=
  congrArg (fun h => tail W2 b2 W3 b3 h o) (hidK_eq_hidR a c u v Wa Wb Wc b1 hu hv hW)

end Cert.Spec

end
-- ==== Proof.Finite.lean ====
/-
  From the precondition to real entries.

  The precondition says that the predicate "every entry of every input has absolute value strictly below +∞",
  evaluated on the eight argument arrays, is 1. The predicate is a conjunction of eight terms, one per input,
  each of them a reduction by "and" over all axes of the elementwise comparison |x| < +∞. A conjunction of
  one-bit words is 1 exactly when every word is 1, and a reduction by "and" over all axes that is 1 had a 1 at
  every entry. So at every entry max(x, −x) < +∞ holds, the right side being the value of the bit pattern
  0x7F800000. Among the extended reals this excludes x = +∞ (max is +∞) and x = −∞ (−x is +∞), so x is a real
  number.
-/
import proofs.«116609_j48808008351770_2_alg».proof.Defs
import Idealize.ShloMosaic.Lib.ReduceAll
import Idealize.ShloMosaic.Lib.ValueIdx

noncomputable section

namespace Cert.KernelIdeal.Finite

open Idealize.ShloMosaic Idealize.SL.Sem

/-- The shape with no axes has a single index. -/
instance : Subsingleton Cert.Pre_finite_inputs.S_.Idx := ⟨fun a b => funext fun d => d.elim0⟩

/-- An extended real x with max(x, −x) strictly below the value of the pattern 0x7F800000, which is +∞, is a
    real number: x = +∞ gives max = +∞, and x = −∞ gives −x = +∞. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One conjunct of the predicate: if the reduction by "and", over all axes, of |x| < +∞ is 1, every entry of x
    is a real number. -/
theorem real_of_all {s : Shape} {axes : List (Fin s.rank)}
    (dims : Fin Cert.Pre_finite_inputs.S_.rank → Fin s.rank)
    (hb : Cert.Pre_finite_inputs.S_.BroadcastsInDim s dims) (hr : s.ReducesTo axes Cert.Pre_finite_inputs.S_)
    (hu : 0 < Cert.Pre_finite_inputs.S_.numel) (x : FVec Ideal s .f32)
    (e : Host.reduce IntOp.andi
          (cmpf .olt (Host.absf x)
            (broadcastInDim s dims hb (constant (F := Ideal) Cert.Pre_finite_inputs.S_ .f32 0x7F800000#32)))
          (constantI Cert.Pre_finite_inputs.S_ 1 1#1) hr hu ValueIdx.ix0 = 1#1)
    (i : s.Idx) : ∃ r : ℝ, x i = (r : EReal) :=
  real_of_abs_lt (x i) (Host.reduce_andi_all _ _ hr hu _ e i)

/-- Under the precondition every entry of each of the eight argument arrays is a real number: the predicate is
    the conjunction of the eight per-input terms, and each is read back entry by entry. -/
theorem real_of_pre_all [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ idx, ∃ r : ℝ, m ((c.tc : Thread Cert.KernelIdeal.nD Cert.KernelIdeal.τ).loc Cert.KernelIdeal.main_arg0) idx = (r : EReal)) ∧
    (∀ idx, ∃ r : ℝ, m ((c.tc : Thread Cert.KernelIdeal.nD Cert.KernelIdeal.τ).loc Cert.KernelIdeal.main_arg1) idx = (r : EReal)) ∧
    (∀ idx, ∃ r : ℝ, m ((c.tc : Thread Cert.KernelIdeal.nD Cert.KernelIdeal.τ).loc Cert.KernelIdeal.main_arg2) idx = (r : EReal)) ∧
    (∀ idx, ∃ r : ℝ, m ((c.tc : Thread Cert.KernelIdeal.nD Cert.KernelIdeal.τ).loc Cert.KernelIdeal.main_arg3) idx = (r : EReal)) ∧
    (∀ idx, ∃ r : ℝ, m ((c.tc : Thread Cert.KernelIdeal.nD Cert.KernelIdeal.τ).loc Cert.KernelIdeal.main_arg4) idx = (r : EReal)) ∧
    (∀ idx, ∃ r : ℝ, m ((c.tc : Thread Cert.KernelIdeal.nD Cert.KernelIdeal.τ).loc Cert.KernelIdeal.main_arg5) idx = (r : EReal)) ∧
    (∀ idx, ∃ r : ℝ, m ((c.tc : Thread Cert.KernelIdeal.nD Cert.KernelIdeal.τ).loc Cert.KernelIdeal.main_arg6) idx = (r : EReal)) ∧
    (∀ idx, ∃ r : ℝ, m ((c.tc : Thread Cert.KernelIdeal.nD Cert.KernelIdeal.τ).loc Cert.KernelIdeal.main_arg7) idx = (r : EReal)) := by
  have h0 := congrFun (h c) ValueIdx.ix0
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨e0, e1⟩, e2⟩, e3⟩, e4⟩, e5⟩, e6⟩, e7⟩ := h0
  exact ⟨real_of_all _ _ _ _ _ e0, real_of_all _ _ _ _ _ e1, real_of_all _ _ _ _ _ e2, real_of_all _ _ _ _ _ e3,
    real_of_all _ _ _ _ _ e4, real_of_all _ _ _ _ _ e5, real_of_all _ _ _ _ _ e6, real_of_all _ _ _ _ _ e7⟩

/-- The two inputs whose finiteness the first-layer law needs: the positions (argument 1) and the first weight
    matrix (argument 2). -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ idx, ∃ r : ℝ, m ((c.tc : Thread Cert.KernelIdeal.nD Cert.KernelIdeal.τ).loc Cert.KernelIdeal.main_arg1) idx = (r : EReal)) ∧
    (∀ idx, ∃ r : ℝ, m ((c.tc : Thread Cert.KernelIdeal.nD Cert.KernelIdeal.τ).loc Cert.KernelIdeal.main_arg2) idx = (r : EReal)) :=
  ⟨(real_of_pre_all m h c).2.1, (real_of_pre_all m h c).2.2.1⟩

end Cert.KernelIdeal.Finite

end
-- ==== Proof.TailValue.lean ====
/-
  The kernel program's last step, read one entry at a time.

  The region leaves its result as an array of shape 8 × 128 × 512 whose row (b, i) holds the 128 × 4 outputs of point i against
  every point j side by side: the output o of the pair (i, j) sits in column 4·j + o. The program then reshapes that array to
  8 × 128 × 128 × 4. A reshape moves no element: it keeps the row-major order, and the row-major position of (b, i, j, o) in the
  second shape, ((b·128 + i)·128 + j)·4 + o, is the position of (b, i, 4·j + o) in the first, (b·128 + i)·512 + (4·j + o).
  Nothing is computed, so the statements hold for any float values. The reshape writes its result buffer only; every other
  buffer of the device keeps its contents.
-/
import proofs.«116609_j48808008351770_2_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.TailValue

open Cert.KernelIdeal Cert.KernelIdeal.Gen Idealize.ShloMosaic Idealize.ShloMosaic.TcCoe Idealize.ShloMosaic.ValueIdx
  Idealize.ShloMosaic.StableHlo

variable {F : FTy → Type} [FloatOps F]

/-- After the program's last step the result buffer holds the region's result array in the second shape, in row-major order. -/
theorem tail_eq (W : Valuation τ sig (Elt F)) :
    (StableHlo.after (hostOps1 (F := F)) W (Proc.devRef .tc main_v1) : S8x128x128x4.Idx → Elt F .f32)
      = shapeCast S8x128x128x4 (W (Proc.devRef .tc main_v0) : S8x128x512.Idx → Elt F .f32) shapeCasts_S8x128x512_S8x128x128x4 := by
  after_results
  rfl

/-- The entry (b, i, j, o) of the final result is the entry (b, i, 4·j + o) of the region's result array: the two indices have the
    same row-major position. -/
theorem tail_apply (W : Valuation τ sig (Elt F)) (b : Fin 8) (i j : Fin 128) (o : Fin 4) :
    StableHlo.after (hostOps1 (F := F)) W (Proc.devRef .tc main_v1) (ix4 b i j o)
      = W (Proc.devRef .tc main_v0) (ix3 b i (⟨4 * j.val + o.val, by omega⟩ : Fin 512)) := by
  rw [tail_eq]
  refine shapeCast_apply (s := S8x128x512) (t := S8x128x128x4) _ _ _ _ ?_
  rw [Shape.rowMajor_val_three, Shape.rowMajor_val_four]
  show ((b.val * 128 + i.val) * 512 + (4 * j.val + o.val)) = (((b.val * 128 + i.val) * 128 + j.val) * 4 + o.val)
  omega

/-- The last step writes the result buffer only: any other buffer of the TensorCore holds afterwards what it held before. -/
theorem kept (W : Valuation τ sig (Elt F)) (r : Ref sig .tc) (h : r ≠ main_v1) :
    StableHlo.after (hostOps1 (F := F)) W (Proc.devRef .tc r) = W (Proc.devRef .tc r) :=
  StableHlo.after_of_forall_not_mem (b := Proc.devRef .tc r) _ _ (List.forall_iff_forall_mem.mp (by
    simp only [hostOps1, List.Forall, StableHlo.reshape_writes, Finset.mem_singleton]
    exact StableHlo.devRef_ne_of_ne h))

/-- The region's result array is kept. -/
theorem kept_main_v0 (W : Valuation τ sig (Elt F)) :
    StableHlo.after (hostOps1 (F := F)) W (Proc.devRef .tc main_v0) = W (Proc.devRef .tc main_v0) := kept W main_v0 (by decide)
/-- The eight argument arrays are kept. -/
theorem kept_main_arg0 (W : Valuation τ sig (Elt F)) :
    StableHlo.after (hostOps1 (F := F)) W (Proc.devRef .tc main_arg0) = W (Proc.devRef .tc main_arg0) := kept W main_arg0 (by decide)
theorem kept_main_arg1 (W : Valuation τ sig (Elt F)) :
    StableHlo.after (hostOps1 (F := F)) W (Proc.devRef .tc main_arg1) = W (Proc.devRef .tc main_arg1) := kept W main_arg1 (by decide)
theorem kept_main_arg2 (W : Valuation τ sig (Elt F)) :
    StableHlo.after (hostOps1 (F := F)) W (Proc.devRef .tc main_arg2) = W (Proc.devRef .tc main_arg2) := kept W main_arg2 (by decide)
theorem kept_main_arg3 (W : Valuation τ sig (Elt F)) :
    StableHlo.after (hostOps1 (F := F)) W (Proc.devRef .tc main_arg3) = W (Proc.devRef .tc main_arg3) := kept W main_arg3 (by decide)
theorem kept_main_arg4 (W : Valuation τ sig (Elt F)) :
    StableHlo.after (hostOps1 (F := F)) W (Proc.devRef .tc main_arg4) = W (Proc.devRef .tc main_arg4) := kept W main_arg4 (by decide)
theorem kept_main_arg5 (W : Valuation τ sig (Elt F)) :
    StableHlo.after (hostOps1 (F := F)) W (Proc.devRef .tc main_arg5) = W (Proc.devRef .tc main_arg5) := kept W main_arg5 (by decide)
theorem kept_main_arg6 (W : Valuation τ sig (Elt F)) :
    StableHlo.after (hostOps1 (F := F)) W (Proc.devRef .tc main_arg6) = W (Proc.devRef .tc main_arg6) := kept W main_arg6 (by decide)
theorem kept_main_arg7 (W : Valuation τ sig (Elt F)) :
    StableHlo.after (hostOps1 (F := F)) W (Proc.devRef .tc main_arg7) = W (Proc.devRef .tc main_arg7) := kept W main_arg7 (by decide)

end Cert.KernelIdeal.TailValue

end
-- ==== Proof.ArrBlocks.lean ====
/-
  The input blocks of a grid point, read back as parts of the argument arrays.

  The grid has 8 × 4 points, the last axis fastest: point t stands for batch b = t / 4 and column block jj = t % 4.
  At point t the body sees, of the feature array and of the position array, the 128 rows of batch b (the points i)
  and the 32 rows 32 · jj … 32 · jj + 31 of batch b (the points j of this column block); the three weight matrices
  and the three biases it sees whole. Each of these facts is the block's index map, decided over the 32 points, and
  the rule that a block's coordinate on an axis is block index × block size + the coordinate inside the block.
-/
import proofs.«116609_j48808008351770_2_alg».proof.Proof.BodyIdeal
import Idealize.ShloMosaic.Lib.Pipeline.Value
import Idealize.ShloMosaic.Lib.ValueIdx
import Idealize.ShloMosaic.Lib.Tactic

noncomputable section

namespace Cert.KernelIdeal.ArrBlocks

open Cert.KernelIdeal Cert.KernelIdeal.Gen Cert.KernelIdeal.Body
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

theorem N32 : cfg0.N = 32 := N_0

/-! ## The printed index maps, decided over the grid

The grid is 8 × 4, last axis fastest: point t is (t / 4, t % 4). -/

theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 1) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 3) = t.val / 4 ∧ win0_10.index t (1 : Fin 3) = 0 ∧ win0_10.index t (2 : Fin 3) = t.val % 4 :=
  (by decide +kernel : ∀ t : Fin grid0.N, _)

/-! ## Each input block, read at an index, is its array read at the global index

A block's coordinate on an axis is the block index times the block size plus the coordinate inside the block. -/

/-- Window 0: the 128 feature rows of batch t / 4. -/
theorem iblk0_apply (c : Dev nD) (t : Fin cfg0.N) (x : S1x128x512.Idx) (k : S8x128x512.Idx)
    (hk0 : (k 0).val = t.val / 4 + (x 0).val) (hk1 : (k 1).val = (x 1).val) (hk2 : (k 2).val = (x 2).val) :
    (iblk m c 0 t : Vec F S1x128x512 .f32) x = (m ((c : Thread nD τ).loc main_arg0) : S8x128x512.Idx → Elt F .f32) k := by
  obtain ⟨e0, e1, e2⟩ := idx0 t
  unfold iblk
  rw [View.read_apply]
  show m (c.tc.loc main_arg0) _ = m (c.tc.loc main_arg0) _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 128 + 1 * (x 1).val = (k 1).val; rw [e1, hk1]; omega
  | ⟨2, _⟩ => show win0_0.index t (2 : Fin 3) * 512 + 1 * (x 2).val = (k 2).val; rw [e2, hk2]; omega

/-- Window 1: the 32 feature rows of batch t / 4 starting at row 32 · (t % 4). -/
theorem iblk1_apply (c : Dev nD) (t : Fin cfg0.N) (x : S1x32x512.Idx) (k : S8x128x512.Idx)
    (hk0 : (k 0).val = t.val / 4 + (x 0).val) (hk1 : (k 1).val = 32 * (t.val % 4) + (x 1).val) (hk2 : (k 2).val = (x 2).val) :
    (iblk m c 1 t : Vec F S1x32x512 .f32) x = (m ((c : Thread nD τ).loc main_arg0) : S8x128x512.Idx → Elt F .f32) k := by
  obtain ⟨e0, e1, e2⟩ := idx1 t
  unfold iblk
  rw [View.read_apply]
  show m (c.tc.loc main_arg0) _ = m (c.tc.loc main_arg0) _
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 32 + 1 * (x 1).val = (k 1).val; rw [e1, hk1]; omega
  | ⟨2, _⟩ => show win0_1.index t (2 : Fin 3) * 512 + 1 * (x 2).val = (k 2).val; rw [e2, hk2]; omega

/-- Window 2: the 128 position rows of batch t / 4. -/
theorem iblk2_apply (c : Dev nD) (t : Fin cfg0.N) (x : S1x128x2.Idx) (k : S8x128x2.Idx)
    (hk0 : (k 0).val = t.val / 4 + (x 0).val) (hk1 : (k 1).val = (x 1).val) (hk2 : (k 2).val = (x 2).val) :
    (iblk m c 2 t : Vec F S1x128x2 .f32) x = (m ((c : Thread nD τ).loc main_arg1) : S8x128x2.Idx → Elt F .f32) k := by
  obtain ⟨e0, e1, e2⟩ := idx2 t
  unfold iblk
  rw [View.read_apply]
  show m (c.tc.loc main_arg1) _ = m (c.tc.loc main_arg1) _
  congr 1
  funext a
  apply Fin.ext
  match a with
  | ⟨0, _⟩ => show win0_2.index t (0 : Fin 3) * 1 + 1 * (x 0).val = (k 0).val; rw [e0, hk0]; omega
  | ⟨1, _⟩ => show win0_2.index t (1 : Fin 3) * 128 + 1 * (x 1).val = (k 1).val; rw [e1, hk1]; omega
  | ⟨2, _⟩ => show win0_2.index t (2 : Fin 3) * 2 + 1 * (x 2).val = (k 2).val; rw [e2, hk2]; omega

/-- Window 3: the 32 position rows of batch t / 4 starting at row 32 · (t % 4). -/
theorem iblk3_apply (c : Dev nD) (t : Fin cfg0.N) (x : S1x32x2.Idx) (k : S8x128x2.Idx)
    (hk0 : (k 0).val = t.val / 4 + (x 0).val) (hk1 : (k 1).val = 32 * (t.val % 4) + (x 1).val) (hk2 : (k 2).val = (x 2).val) :
    (iblk m c 3 t : Vec F S1x32x2 .f32) x = (m ((c : Thread nD τ).loc main_arg1) : S8x128x2.Idx → Elt F .f32) k := by
  obtain ⟨e0, e1, e2⟩ := idx3 t
  unfold iblk
  rw [View.read_apply]
  show m (c.tc.loc main_arg1) _ = m (c.tc.loc main_arg1) _
  congr 1
  funext a
  apply Fin.ext
  match a with
  | ⟨0, _⟩ => show win0_3.index t (0 : Fin 3) * 1 + 1 * (x 0).val = (k 0).val; rw [e0, hk0]; omega
  | ⟨1, _⟩ => show win0_3.index t (1 : Fin 3) * 32 + 1 * (x 1).val = (k 1).val; rw [e1, hk1]; omega
  | ⟨2, _⟩ => show win0_3.index t (2 : Fin 3) * 2 + 1 * (x 2).val = (k 2).val; rw [e2, hk2]; omega

/-- Window 4 is the first weight matrix, whole, at every point. -/
theorem iblk4_eq (c : Dev nD) (t : Fin cfg0.N) :
    (iblk m c 4 t : Vec F S1026x512 .f32) = (m ((c : Thread nD τ).loc main_arg2) : S1026x512.Idx → Elt F .f32) := by
  obtain ⟨e0, e1⟩ := idx4 t
  funext x
  unfold iblk
  rw [View.read_apply]
  show m (c.tc.loc main_arg2) _ = m (c.tc.loc main_arg2) _
  congr 1
  funext a
  apply Fin.ext
  match a with
  | ⟨0, _⟩ => show win0_4.index t (0 : Fin 2) * 1026 + 1 * (x 0).val = (x 0).val; rw [e0]; omega
  | ⟨1, _⟩ => show win0_4.index t (1 : Fin 2) * 512 + 1 * (x 1).val = (x 1).val; rw [e1]; omega

/-- Window 5 is the first bias, whole, at every point. -/
theorem iblk5_eq (c : Dev nD) (t : Fin cfg0.N) :
    (iblk m c 5 t : Vec F S512 .f32) = (m ((c : Thread nD τ).loc main_arg3) : S512.Idx → Elt F .f32) := by
  have e0 := idx5 t
  funext x
  unfold iblk
  rw [View.read_apply]
  show m (c.tc.loc main_arg3) _ = m (c.tc.loc main_arg3) _
  congr 1
  funext a
  apply Fin.ext
  match a with
  | ⟨0, _⟩ => show win0_5.index t (0 : Fin 1) * 512 + 1 * (x 0).val = (x 0).val; rw [e0]; omega

/-- Window 6 is the second weight matrix, whole, at every point. -/
theorem iblk6_eq (c : Dev nD) (t : Fin cfg0.N) :
    (iblk m c 6 t : Vec F S512x256 .f32) = (m ((c : Thread nD τ).loc main_arg4) : S512x256.Idx → Elt F .f32) := by
  obtain ⟨e0, e1⟩ := idx6 t
  funext x
  unfold iblk
  rw [View.read_apply]
  show m (c.tc.loc main_arg4) _ = m (c.tc.loc main_arg4) _
  congr 1
  funext a
  apply Fin.ext
  match a with
  | ⟨0, _⟩ => show win0_6.index t (0 : Fin 2) * 512 + 1 * (x 0).val = (x 0).val; rw [e0]; omega
  | ⟨1, _⟩ => show win0_6.index t (1 : Fin 2) * 256 + 1 * (x 1).val = (x 1).val; rw [e1]; omega

/-- Window 7 is the second bias, whole, at every point. -/
theorem iblk7_eq (c : Dev nD) (t : Fin cfg0.N) :
    (iblk m c 7 t : Vec F S256 .f32) = (m ((c : Thread nD τ).loc main_arg5) : S256.Idx → Elt F .f32) := by
  have e0 := idx7 t
  funext x
  unfold iblk
  rw [View.read_apply]
  show m (c.tc.loc main_arg5) _ = m (c.tc.loc main_arg5) _
  congr 1
  funext a
  apply Fin.ext
  match a with
  | ⟨0, _⟩ => show win0_7.index t (0 : Fin 1) * 256 + 1 * (x 0).val = (x 0).val; rw [e0]; omega

/-- Window 8 is the third weight matrix, whole, at every point. -/
theorem iblk8_eq (c : Dev nD) (t : Fin cfg0.N) :
    (iblk m c 8 t : Vec F S256x4 .f32) = (m ((c : Thread nD τ).loc main_arg6) : S256x4.Idx → Elt F .f32) := by
  obtain ⟨e0, e1⟩ := idx8 t
  funext x
  unfold iblk
  rw [View.read_apply]
  show m (c.tc.loc main_arg6) _ = m (c.tc.loc main_arg6) _
  congr 1
  funext a
  apply Fin.ext
  match a with
  | ⟨0, _⟩ => show win0_8.index t (0 : Fin 2) * 256 + 1 * (x 0).val = (x 0).val; rw [e0]; omega
  | ⟨1, _⟩ => show win0_8.index t (1 : Fin 2) * 4 + 1 * (x 1).val = (x 1).val; rw [e1]; omega

/-- Window 9 is the third bias, whole, at every point. -/
theorem iblk9_eq (c : Dev nD) (t : Fin cfg0.N) :
    (iblk m c 9 t : Vec F S4 .f32) = (m ((c : Thread nD τ).loc main_arg7) : S4.Idx → Elt F .f32) := by
  have e0 := idx9 t
  funext x
  unfold iblk
  rw [View.read_apply]
  show m (c.tc.loc main_arg7) _ = m (c.tc.loc main_arg7) _
  congr 1
  funext a
  apply Fin.ext
  match a with
  | ⟨0, _⟩ => show win0_9.index t (0 : Fin 1) * 4 + 1 * (x 0).val = (x 0).val; rw [e0]; omega

/-! ## The row blocks as functions of the batch and the column block -/

/-- The 128 rows of batch b of an array [8, 128, n], as a block [1, 128, n]. -/
def rowsOf {α : Type} {n : Nat} (A : (⟨3, ![8, 128, n]⟩ : Shape).Idx → α) (b : Fin 8) :
    (⟨3, ![1, 128, n]⟩ : Shape).Idx → α := fun x => A (ix3 b (x 1) (x 2))

/-- The 32 rows 32 · jj … 32 · jj + 31 of batch b of an array [8, 128, n], as a block [1, 32, n]. -/
def colsOf {α : Type} {n : Nat} (A : (⟨3, ![8, 128, n]⟩ : Shape).Idx → α) (b : Fin 8) (jj : Fin 4) :
    (⟨3, ![1, 32, n]⟩ : Shape).Idx → α := fun x =>
  A (ix3 b ⟨32 * jj.val + (x 1).val, by have h : (x 1).val < 32 := (x 1).isLt; have := jj.isLt; omega⟩ (x 2))

theorem rowsOf_apply {α : Type} {n : Nat} (A : (⟨3, ![8, 128, n]⟩ : Shape).Idx → α) (b : Fin 8) (i : Fin 128) (d : Fin n) :
    rowsOf A b (ix3 (0 : Fin 1) i d) = A (ix3 b i d) := rfl

theorem colsOf_apply {α : Type} {n : Nat} (A : (⟨3, ![8, 128, n]⟩ : Shape).Idx → α) (b : Fin 8) (jj : Fin 4) (j : Fin 32) (d : Fin n) :
    colsOf A b jj (ix3 (0 : Fin 1) j d) = A (ix3 b ⟨32 * jj.val + j.val, by have := jj.isLt; have := j.isLt; omega⟩ d) := rfl

theorem iblk0_eq (c : Dev nD) (t : Fin cfg0.N) (b : Fin 8) (hb : b.val = t.val / 4) :
    (iblk m c 0 t : Vec F S1x128x512 .f32) = rowsOf (m ((c : Thread nD τ).loc main_arg0) : S8x128x512.Idx → Elt F .f32) b :=
  funext fun x => iblk0_apply m c t x _
    (by show b.val = t.val / 4 + (x 0).val; have h : (x 0).val < 1 := (x 0).isLt; omega) rfl rfl

theorem iblk1_eq (c : Dev nD) (t : Fin cfg0.N) (b : Fin 8) (jj : Fin 4) (hb : b.val = t.val / 4) (hj : jj.val = t.val % 4) :
    (iblk m c 1 t : Vec F S1x32x512 .f32) = colsOf (m ((c : Thread nD τ).loc main_arg0) : S8x128x512.Idx → Elt F .f32) b jj :=
  funext fun x => iblk1_apply m c t x _
    (by show b.val = t.val / 4 + (x 0).val; have h : (x 0).val < 1 := (x 0).isLt; omega)
    (by show 32 * jj.val + (x 1).val = 32 * (t.val % 4) + (x 1).val; rw [hj]) rfl

theorem iblk2_eq (c : Dev nD) (t : Fin cfg0.N) (b : Fin 8) (hb : b.val = t.val / 4) :
    (iblk m c 2 t : Vec F S1x128x2 .f32) = rowsOf (m ((c : Thread nD τ).loc main_arg1) : S8x128x2.Idx → Elt F .f32) b :=
  funext fun x => iblk2_apply m c t x _
    (by show b.val = t.val / 4 + (x 0).val; have h : (x 0).val < 1 := (x 0).isLt; omega) rfl rfl

theorem iblk3_eq (c : Dev nD) (t : Fin cfg0.N) (b : Fin 8) (jj : Fin 4) (hb : b.val = t.val / 4) (hj : jj.val = t.val % 4) :
    (iblk m c 3 t : Vec F S1x32x2 .f32) = colsOf (m ((c : Thread nD τ).loc main_arg1) : S8x128x2.Idx → Elt F .f32) b jj :=
  funext fun x => iblk3_apply m c t x _
    (by show b.val = t.val / 4 + (x 0).val; have h : (x 0).val < 1 := (x 0).isLt; omega)
    (by show 32 * jj.val + (x 1).val = 32 * (t.val % 4) + (x 1).val; rw [hj]) rfl

end Cert.KernelIdeal.ArrBlocks

end
-- ==== Proof.ArrValue.lean ====
/-
  From the blocks to the whole output array.

  Every grid point writes its output block back, and the blocks tile the output array: the point of batch b and
  column block jj writes rows 0 … 127 and columns 128 · jj … 128 · jj + 127 of batch b. What a point writes is
  the body's stored value on its input blocks, and those are parts of the argument arrays; so the point's block
  is block (b, jj) of ONE function G of the argument arrays, and the array after the run is G: at index
  (b, i, q), what the point of batch b and column block q / 128 left at row i, column q % 128 of its block.
-/
import proofs.«116609_j48808008351770_2_alg».proof.Proof.ArrBlocks

noncomputable section

namespace Cert.KernelIdeal.ArrValue

open Cert.KernelIdeal Cert.KernelIdeal.Gen Cert.KernelIdeal.Body Cert.KernelIdeal.ArrBlocks
open Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-! ## What a point leaves in the output buffer, as a function of the argument arrays -/

/-- The eight argument arrays on device c. -/
abbrev A0 (c : Dev nD) : S8x128x512.Idx → Elt F .f32 := m ((c : Thread nD τ).loc main_arg0)
abbrev A1 (c : Dev nD) : S8x128x2.Idx → Elt F .f32 := m ((c : Thread nD τ).loc main_arg1)
abbrev A2 (c : Dev nD) : S1026x512.Idx → Elt F .f32 := m ((c : Thread nD τ).loc main_arg2)
abbrev A3 (c : Dev nD) : S512.Idx → Elt F .f32 := m ((c : Thread nD τ).loc main_arg3)
abbrev A4 (c : Dev nD) : S512x256.Idx → Elt F .f32 := m ((c : Thread nD τ).loc main_arg4)
abbrev A5 (c : Dev nD) : S256.Idx → Elt F .f32 := m ((c : Thread nD τ).loc main_arg5)
abbrev A6 (c : Dev nD) : S256x4.Idx → Elt F .f32 := m ((c : Thread nD τ).loc main_arg6)
abbrev A7 (c : Dev nD) : S4.Idx → Elt F .f32 := m ((c : Thread nD τ).loc main_arg7)

/-- What the point of batch b and column block jj leaves in the output buffer: the body's stored value on the rows
    of batch b, the 32 rows of column block jj, and the weights. -/
def blockOf (c : Dev nD) (b : Fin 8) (jj : Fin 4) : Vec F S1x128x128 .f32 :=
  out10 (rowsOf (A0 m c) b) (colsOf (A0 m c) b jj) (rowsOf (A1 m c) b) (colsOf (A1 m c) b jj)
    (A2 m c) (A3 m c) (A4 m c) (A5 m c) (A6 m c) (A7 m c)

theorem out10_congr {x0 x0' : Vec F S1x128x512 .f32} {x1 x1' : Vec F S1x32x512 .f32} {x2 x2' : Vec F S1x128x2 .f32}
    {x3 x3' : Vec F S1x32x2 .f32} {x4 x4' : Vec F S1026x512 .f32} {x5 x5' : Vec F S512 .f32} {x6 x6' : Vec F S512x256 .f32}
    {x7 x7' : Vec F S256 .f32} {x8 x8' : Vec F S256x4 .f32} {x9 x9' : Vec F S4 .f32}
    (h0 : x0 = x0') (h1 : x1 = x1') (h2 : x2 = x2') (h3 : x3 = x3') (h4 : x4 = x4') (h5 : x5 = x5') (h6 : x6 = x6')
    (h7 : x7 = x7') (h8 : x8 = x8') (h9 : x9 = x9') :
    out10 x0 x1 x2 x3 x4 x5 x6 x7 x8 x9 = out10 x0' x1' x2' x3' x4' x5' x6' x7' x8' x9' := by
  subst h0 h1 h2 h3 h4 h5 h6 h7 h8 h9; rfl

/-- What point t leaves in the output buffer is `blockOf` at its batch and column block. -/
theorem after_eq (c : Dev nD) (t : Fin cfg0.N) (b : Fin 8) (jj : Fin 4) (hb : b.val = t.val / 4) (hj : jj.val = t.val % 4) :
    out10 (iblk m c 0 t) (iblk m c 1 t) (iblk m c 2 t) (iblk m c 3 t) (iblk m c 4 t) (iblk m c 5 t) (iblk m c 6 t)
        (iblk m c 7 t) (iblk m c 8 t) (iblk m c 9 t) = blockOf m c b jj :=
  out10_congr (iblk0_eq m c t b hb) (iblk1_eq m c t b jj hb hj) (iblk2_eq m c t b hb) (iblk3_eq m c t b jj hb hj)
    (iblk4_eq m c t) (iblk5_eq m c t) (iblk6_eq m c t) (iblk7_eq m c t) (iblk8_eq m c t) (iblk9_eq m c t)

/-! ## The output array as one function of the argument arrays -/

/-- The batch of an array index. -/
def bOf (i : S8x128x512.Idx) : Fin 8 := ⟨(i 0).val, (i 0).isLt⟩
/-- The column block of an array index: (i 2) / 128. -/
def jOf (i : S8x128x512.Idx) : Fin 4 := ⟨(i 2).val / 128, by have h : (i 2).val < 512 := (i 2).isLt; omega⟩
/-- The place of an array index inside its block: row (i 1), column (i 2) % 128. -/
def locOf (i : S8x128x512.Idx) : S1x128x128.Idx :=
  ix3 (0 : Fin 1) (i 1) ⟨(i 2).val % 128, Nat.mod_lt _ (by decide)⟩

theorem locOf_0 (i : S8x128x512.Idx) : ((locOf i) 0).val = 0 := rfl
theorem locOf_1 (i : S8x128x512.Idx) : ((locOf i) 1).val = (i 1).val := rfl
theorem locOf_2 (i : S8x128x512.Idx) : ((locOf i) 2).val = (i 2).val % 128 := rfl

/-- The output array: at index i, what the point of i's batch and column block left at i's place in the block. -/
def G (c : Dev nD) : S8x128x512.Idx → Elt F .f32 := fun i => blockOf m c (bOf i) (jOf i) (locOf i)

/-- G at an array index X, named by X's batch b, column block jj and place y in the block. -/
theorem G_at (c : Dev nD) (X : S8x128x512.Idx) (b : Fin 8) (jj : Fin 4) (y : S1x128x128.Idx)
    (h0 : (X 0).val = b.val) (h1 : (X 1).val = (y 1).val) (h2 : (X 2).val = 128 * jj.val + (y 2).val) :
    G m c X = blockOf m c b jj y := by
  have hy2 : (y 2).val < 128 := (y 2).isLt
  have hb : bOf X = b := Fin.ext h0
  have hj : jOf X = jj := Fin.ext (by show (X 2).val / 128 = jj.val; omega)
  have hl : locOf X = y := by
    funext a; apply Fin.ext
    match a with
    | ⟨0, _⟩ => have hy0 : (y 0).val < 1 := (y 0).isLt
                show ((locOf X) 0).val = (y 0).val; rw [locOf_0]; omega
    | ⟨1, _⟩ => show ((locOf X) 1).val = (y 1).val; rw [locOf_1, h1]
    | ⟨2, _⟩ => show ((locOf X) 2).val = (y 2).val; rw [locOf_2, h2]; omega
  show blockOf m c (bOf X) (jOf X) (locOf X) = _
  rw [hb, hj, hl]

/-! ## From the blocks to the array -/

/-- The output window's buffer is written back whole. -/
theorem flushed_at (c : Dev nD) (t : Fin cfg0.N) (y : S1x128x128.Idx) :
    (dats m 0 c).flushed 10 t y
      = out10 (iblk m c 0 t) (iblk m c 1 t) (iblk m c 2 t) (iblk m c 3 t) (iblk m c 4 t) (iblk m c 5 t) (iblk m c 6 t)
          (iblk m c 7 t) (iblk m c 8 t) (iblk m c 9 t) y := by
  show (cfg0.win 10).cut (grid0.coords t) ((dats m 0 c).after 10 t) y = _
  rw [after10]
  rfl

/-- Reading an array through point t's output block is reading it at the block's indices. -/
theorem read_at (t : Fin cfg0.N) (g : S8x128x512.Idx → Elt F .f32) (y : S1x128x128.Idx) :
    ((cfg0.win 10).blk t).view.read (Elt F) g y = g (((cfg0.win 10).blk t).view.emb y) := rfl

/-- What point t writes back is block t of G. -/
theorem flushed_eq (c : Dev nD) (t : Fin cfg0.N) :
    (dats m 0 c).flushed 10 t = ((cfg0.win 10).blk t).view.read (Elt F) (G m c) := by
  obtain ⟨e0, e1, e2⟩ := idx10 t
  have htN : t.val < 32 := lt_of_lt_of_eq t.isLt N32
  have hb8 : t.val / 4 < 8 := by omega
  have hj4 : t.val % 4 < 4 := by omega
  funext y
  have hy0 : (y 0).val < 1 := (y 0).isLt
  rw [flushed_at, read_at, after_eq m c t ⟨t.val / 4, hb8⟩ ⟨t.val % 4, hj4⟩ rfl rfl]
  refine (G_at m c _ ⟨t.val / 4, hb8⟩ ⟨t.val % 4, hj4⟩ y ?_ ?_ ?_).symm
  · show win0_10.index t (0 : Fin 3) * 1 + 1 * (y 0).val = t.val / 4
    rw [e0]; omega
  · show win0_10.index t (1 : Fin 3) * 128 + 1 * (y 1).val = (y 1).val
    rw [e1]; omega
  · show win0_10.index t (2 : Fin 3) * 128 + 1 * (y 2).val = 128 * (t.val % 4) + (y 2).val
    rw [e2]; omega

/-- An index of the array is in point t's block iff each coordinate is in the block's range on its axis. -/
theorem mem_blk (t : Fin cfg0.N) (i : S8x128x512.Idx) :
    i ∈ ((cfg0.win 10).blk t).view.set ↔ ∀ a : Fin 3, win0_10.index t a * S1x128x128.size a ≤ (i a).val ∧ (i a).val < win0_10.index t a * S1x128x128.size a + S1x128x128.size a := by
  show i ∈ ((View.whole main_v0).slice (win0_10.rect t)).set ↔ _
  rw [View.set_slice_whole, Rect.mem_set_unit]
  exact Iff.rfl

/-- The grid point of an array index: 4 · batch + column block. -/
def ptOf (i : S8x128x512.Idx) : Fin cfg0.N := ⟨4 * (i 0).val + (i 2).val / 128, by
  have h0 : (i 0).val < 8 := (i 0).isLt
  have h2 : (i 2).val < 512 := (i 2).isLt
  exact lt_of_lt_of_eq (by omega : 4 * (i 0).val + (i 2).val / 128 < 32) N32.symm⟩

theorem ptOf_val (i : S8x128x512.Idx) : (ptOf i).val = 4 * (i 0).val + (i 2).val / 128 := rfl

/-- Every index of the array is in the block of its point, and every point writes its block back. -/
theorem cover (i : S8x128x512.Idx) :
    ∃ t : Fin cfg0.N, (cfg0.win 10).flush t = true ∧ i ∈ ((cfg0.win 10).blk t).view.set := by
  refine ⟨ptOf i, flush0_10 _, ?_⟩
  rw [mem_blk]
  obtain ⟨e0, e1, e2⟩ := idx10 (ptOf i)
  have hv : (ptOf i).val = 4 * (i 0).val + (i 2).val / 128 := rfl
  have h0 : (i 0).val < 8 := (i 0).isLt
  have h1 : (i 1).val < 128 := (i 1).isLt
  have h2 : (i 2).val < 512 := (i 2).isLt
  intro a
  match a with
  | ⟨0, _⟩ => show win0_10.index (ptOf i) (0 : Fin 3) * 1 ≤ (i 0).val ∧ (i 0).val < win0_10.index (ptOf i) (0 : Fin 3) * 1 + 1; rw [e0, hv]; omega
  | ⟨1, _⟩ => show win0_10.index (ptOf i) (1 : Fin 3) * 128 ≤ (i 1).val ∧ (i 1).val < win0_10.index (ptOf i) (1 : Fin 3) * 128 + 128; rw [e1]; omega
  | ⟨2, _⟩ => show win0_10.index (ptOf i) (2 : Fin 3) * 128 ≤ (i 2).val ∧ (i 2).val < win0_10.index (ptOf i) (2 : Fin 3) * 128 + 128; rw [e2, hv]; omega

/-- The output array after the run is G. -/
theorem final (c : Dev nD) : (dats m 0 c).arrAt 10 cfg0.N = G m c :=
  (dats m 0 c).arrAt_eq_of_cover 10 (G m c) (fun t _ => flushed_eq m c t) cover

/-- Entry (b, i, q) of the output array after the run: what the point of batch b and column block q / 128 left
    at row i, column q % 128 of its block, as a function of the argument arrays. -/
theorem arr_apply (c : Dev nD) (b : Fin 8) (i : Fin 128) (q : Fin 512) :
    (dats m 0 c).arrAt 10 cfg0.N (ix3 b i q)
      = blockOf m c b ⟨q.val / 128, by have := q.isLt; omega⟩ (ix3 (0 : Fin 1) i ⟨q.val % 128, Nat.mod_lt _ (by decide)⟩) := by
  have h := congrFun (final m c) (ix3 b i q)
  refine h.trans ?_
  exact G_at m c (ix3 b i q) b _ _ rfl rfl (by show q.val = 128 * (q.val / 128) + q.val % 128; omega)

/-- The same entry in terms of the blocks of the point t = 4 · b + q / 128. -/
theorem arr_apply_blocks (c : Dev nD) (b : Fin 8) (i : Fin 128) (q : Fin 512) (t : Fin cfg0.N)
    (ht : t.val = 4 * b.val + q.val / 128) :
    (dats m 0 c).arrAt 10 cfg0.N (ix3 b i q)
      = out10 (iblk m c 0 t) (iblk m c 1 t) (iblk m c 2 t) (iblk m c 3 t) (iblk m c 4 t) (iblk m c 5 t) (iblk m c 6 t)
          (iblk m c 7 t) (iblk m c 8 t) (iblk m c 9 t) (ix3 (0 : Fin 1) i ⟨q.val % 128, Nat.mod_lt _ (by decide)⟩) := by
  have hq : q.val < 512 := q.isLt
  rw [arr_apply, after_eq m c t b ⟨q.val / 128, by omega⟩ (by omega) (by show q.val / 128 = t.val % 4; omega)]

end Cert.KernelIdeal.ArrValue
end
-- ==== Proof.PayDots.lean ====
/-
  The six matrix products of the kernel body, each read at one entry.

  Every product of the body contracts the second axis of its left factor with the first axis of its right factor and
  accumulates into an array of zeros, so entry (r, c) of the result is the plain sum over d of left (r, d) · right (d, c).
  The sum is first indexed by the one-axis contraction shape; it is carried to a sum over Fin K through the bijection
  between that shape's indices and their single coordinate.
-/
import proofs.«116609_j48808008351770_2_alg».proof.Proof.Gen.KernelIdeal.Skeleton
import Idealize.ShloMosaic.Lib.ValueIdx
import Idealize.ShloMosaic.PureOps.Ideal.Laws

noncomputable section

namespace Cert.KernelIdeal.PayValue

open Idealize.ShloMosaic Idealize.ShloMosaic.ValueIdx Cert.KernelIdeal
open scoped BigOperators

/-! ## Feature rows of the points i against the first 512 rows of the first weight matrix -/

theorem mm_featRow_l0 (i : S128x512.Idx) (q : dot_S128x512_S512x512_S128x512_1_0_0_1_n_n.contr.Idx) : (dot_S128x512_S512x512_S128x512_1_0_0_1_n_n.lhsIdx i q 0).val = (i 0).val := by
  unfold DotDims.lhsIdx
  rw [dif_neg (show ¬(0 : Fin S128x512.rank) ∈ dot_S128x512_S512x512_S128x512_1_0_0_1_n_n.lhsBatch by decide),
    dif_pos (show (0 : Fin S128x512.rank) ∈ dot_S128x512_S512x512_S128x512_1_0_0_1_n_n.lhsNonContracting by decide)]
  rfl
theorem mm_featRow_l1 (i : S128x512.Idx) (q : dot_S128x512_S512x512_S128x512_1_0_0_1_n_n.contr.Idx) : (dot_S128x512_S512x512_S128x512_1_0_0_1_n_n.lhsIdx i q 1).val = (q ⟨0, by decide⟩).val :=
  dot_S128x512_S512x512_S128x512_1_0_0_1_n_n.lhsIdx_val_of_single rfl i q
theorem mm_featRow_r0 (i : S128x512.Idx) (q : dot_S128x512_S512x512_S128x512_1_0_0_1_n_n.contr.Idx) : (dot_S128x512_S512x512_S128x512_1_0_0_1_n_n.rhsIdx i q 0).val = (q ⟨0, by decide⟩).val :=
  dot_S128x512_S512x512_S128x512_1_0_0_1_n_n.rhsIdx_val_of_single rfl i q
theorem mm_featRow_r1 (i : S128x512.Idx) (q : dot_S128x512_S512x512_S128x512_1_0_0_1_n_n.contr.Idx) : (dot_S128x512_S512x512_S128x512_1_0_0_1_n_n.rhsIdx i q 1).val = (i 1).val := by
  unfold DotDims.rhsIdx
  rw [dif_neg (show ¬(1 : Fin S512x512.rank) ∈ dot_S128x512_S512x512_S128x512_1_0_0_1_n_n.rhsBatch by decide),
    dif_pos (show (1 : Fin S512x512.rank) ∈ dot_S128x512_S512x512_S128x512_1_0_0_1_n_n.rhsNonContracting by decide)]
  rfl

/-- The product into the zero accumulator, read at row r and column c: the sum over the one contracted axis. -/
theorem mm_featRow (lhs : FVec Ideal S128x512 .bf16) (rhs : FVec Ideal S512x512 .bf16) (r : Fin 128) (c : Fin 512) :
    matmul (F := Ideal) dot_S128x512_S512x512_S128x512_1_0_0_1_n_n none lhs rhs (constant (F := Ideal) S128x512 .f32 0x00000000#32) (ix2 r c)
      = ∑ d : Fin 512, lhs (ix2 r d) * rhs (ix2 d c) := by
  refine (Ideal.matmul_constant_zero_apply dot_S128x512_S512x512_S128x512_1_0_0_1_n_n none lhs rhs (ix2 r c)).trans ?_
  rw [← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 r c) ((contrEquiv1 dot_S128x512_S512x512_S128x512_1_0_0_1_n_n 512 rfl rfl).symm k) = ix2 r k :=
    funext fun a => Fin.ext (by
      match a with
      | ⟨0, _⟩ => exact mm_featRow_l0 _ _
      | ⟨1, _⟩ => exact (mm_featRow_l1 _ _).trans hk)
  have er : dot_S128x512_S512x512_S128x512_1_0_0_1_n_n.rhsIdx (ix2 r c) ((contrEquiv1 dot_S128x512_S512x512_S128x512_1_0_0_1_n_n 512 rfl rfl).symm k) = ix2 k c :=
    funext fun a => Fin.ext (by
      match a with
      | ⟨0, _⟩ => exact (mm_featRow_r0 _ _).trans hk
      | ⟨1, _⟩ => exact mm_featRow_r1 _ _)
  rw [el, er]

/-! ## Position rows of the points i against the last two rows of the first weight matrix -/

theorem mm_posRow_l0 (i : S128x512.Idx) (q : dot_S128x2_S2x512_S128x512_1_0_0_1_n_n.contr.Idx) : (dot_S128x2_S2x512_S128x512_1_0_0_1_n_n.lhsIdx i q 0).val = (i 0).val := by
  unfold DotDims.lhsIdx
  rw [dif_neg (show ¬(0 : Fin S128x2.rank) ∈ dot_S128x2_S2x512_S128x512_1_0_0_1_n_n.lhsBatch by decide),
    dif_pos (show (0 : Fin S128x2.rank) ∈ dot_S128x2_S2x512_S128x512_1_0_0_1_n_n.lhsNonContracting by decide)]
  rfl
theorem mm_posRow_l1 (i : S128x512.Idx) (q : dot_S128x2_S2x512_S128x512_1_0_0_1_n_n.contr.Idx) : (dot_S128x2_S2x512_S128x512_1_0_0_1_n_n.lhsIdx i q 1).val = (q ⟨0, by decide⟩).val :=
  dot_S128x2_S2x512_S128x512_1_0_0_1_n_n.lhsIdx_val_of_single rfl i q
theorem mm_posRow_r0 (i : S128x512.Idx) (q : dot_S128x2_S2x512_S128x512_1_0_0_1_n_n.contr.Idx) : (dot_S128x2_S2x512_S128x512_1_0_0_1_n_n.rhsIdx i q 0).val = (q ⟨0, by decide⟩).val :=
  dot_S128x2_S2x512_S128x512_1_0_0_1_n_n.rhsIdx_val_of_single rfl i q
theorem mm_posRow_r1 (i : S128x512.Idx) (q : dot_S128x2_S2x512_S128x512_1_0_0_1_n_n.contr.Idx) : (dot_S128x2_S2x512_S128x512_1_0_0_1_n_n.rhsIdx i q 1).val = (i 1).val := by
  unfold DotDims.rhsIdx
  rw [dif_neg (show ¬(1 : Fin S2x512.rank) ∈ dot_S128x2_S2x512_S128x512_1_0_0_1_n_n.rhsBatch by decide),
    dif_pos (show (1 : Fin S2x512.rank) ∈ dot_S128x2_S2x512_S128x512_1_0_0_1_n_n.rhsNonContracting by decide)]
  rfl

/-- The product into the zero accumulator, read at row r and column c: the sum over the one contracted axis. -/
theorem mm_posRow (lhs : FVec Ideal S128x2 .bf16) (rhs : FVec Ideal S2x512 .bf16) (r : Fin 128) (c : Fin 512) :
    matmul (F := Ideal) dot_S128x2_S2x512_S128x512_1_0_0_1_n_n none lhs rhs (constant (F := Ideal) S128x512 .f32 0x00000000#32) (ix2 r c)
      = ∑ d : Fin 2, lhs (ix2 r d) * rhs (ix2 d c) := by
  refine (Ideal.matmul_constant_zero_apply dot_S128x2_S2x512_S128x512_1_0_0_1_n_n none lhs rhs (ix2 r c)).trans ?_
  rw [← Equiv.sum_comp (contrEquiv1 dot_S128x2_S2x512_S128x512_1_0_0_1_n_n 2 rfl rfl).symm]
  refine Finset.sum_congr rfl fun k _ => ?_
  have hk := contrEquiv1_symm_val dot_S128x2_S2x512_S128x512_1_0_0_1_n_n 2 rfl rfl k
  have el : dot_S128x2_S2x512_S128x512_1_0_0_1_n_n.lhsIdx (ix2 r c) ((contrEquiv1 dot_S128x2_S2x512_S128x512_1_0_0_1_n_n 2 rfl rfl).symm k) = ix2 r k :=
    funext fun a => Fin.ext (by
      match a with
      | ⟨0, _⟩ => exact mm_posRow_l0 _ _
      | ⟨1, _⟩ => exact (mm_posRow_l1 _ _).trans hk)
  have er : dot_S128x2_S2x512_S128x512_1_0_0_1_n_n.rhsIdx (ix2 r c) ((contrEquiv1 dot_S128x2_S2x512_S128x512_1_0_0_1_n_n 2 rfl rfl).symm k) = ix2 k c :=
    funext fun a => Fin.ext (by
      match a with
      | ⟨0, _⟩ => exact (mm_posRow_r0 _ _).trans hk
      | ⟨1, _⟩ => exact mm_posRow_r1 _ _)
  rw [el, er]

/-! ## Feature rows of the block's points j against rows 512 to 1023 of the first weight matrix -/

theorem mm_featCol_l0 (i : S32x512.Idx) (q : dot_S32x512_S512x512_S32x512_1_0_0_1_n_n.contr.Idx) : (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide),
    dif_pos (show (0 : Fin S32x512.rank) ∈ dot_S32x512_S512x512_S32x512_1_0_0_1_n_n.lhsNonContracting by decide)]
  rfl
theorem mm_featCol_l1 (i : S32x512.Idx) (q : dot_S32x512_S512x512_S32x512_1_0_0_1_n_n.contr.Idx) : (dot_S32x512_S512x512_S32x512_1_0_0_1_n_n.lhsIdx i q 1).val = (q ⟨0, by decide⟩).val :=
  dot_S32x512_S512x512_S32x512_1_0_0_1_n_n.lhsIdx_val_of_single rfl i q
theorem mm_featCol_r0 (i : S32x512.Idx) (q : dot_S32x512_S512x512_S32x512_1_0_0_1_n_n.contr.Idx) : (dot_S32x512_S512x512_S32x512_1_0_0_1_n_n.rhsIdx i q 0).val = (q ⟨0, by decide⟩).val :=
  dot_S32x512_S512x512_S32x512_1_0_0_1_n_n.rhsIdx_val_of_single rfl i q
theorem mm_featCol_r1 (i : S32x512.Idx) (q : dot_S32x512_S512x512_S32x512_1_0_0_1_n_n.contr.Idx) : (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide),
    dif_pos (show (1 : Fin S512x512.rank) ∈ dot_S32x512_S512x512_S32x512_1_0_0_1_n_n.rhsNonContracting by decide)]
  rfl

/-- The product into the zero accumulator, read at row r and column c: the sum over the one contracted axis. -/
theorem mm_featCol (lhs : FVec Ideal S32x512 .bf16) (rhs : FVec Ideal S512x512 .bf16) (r : Fin 32) (c : Fin 512) :
    matmul (F := Ideal) dot_S32x512_S512x512_S32x512_1_0_0_1_n_n none lhs rhs (constant (F := Ideal) S32x512 .f32 0x00000000#32) (ix2 r c)
      = ∑ d : Fin 512, lhs (ix2 r d) * rhs (ix2 d c) := by
  refine (Ideal.matmul_constant_zero_apply dot_S32x512_S512x512_S32x512_1_0_0_1_n_n none lhs rhs (ix2 r c)).trans ?_
  rw [← Equiv.sum_comp (contrEquiv1 dot_S32x512_S512x512_S32x512_1_0_0_1_n_n 512 rfl rfl).symm]
  refine Finset.sum_congr rfl fun k _ => ?_
  have hk := contrEquiv1_symm_val dot_S32x512_S512x512_S32x512_1_0_0_1_n_n 512 rfl rfl k
  have el : dot_S32x512_S512x512_S32x512_1_0_0_1_n_n.lhsIdx (ix2 r c) ((contrEquiv1 dot_S32x512_S512x512_S32x512_1_0_0_1_n_n 512 rfl rfl).symm k) = ix2 r k :=
    funext fun a => Fin.ext (by
      match a with
      | ⟨0, _⟩ => exact mm_featCol_l0 _ _
      | ⟨1, _⟩ => exact (mm_featCol_l1 _ _).trans hk)
  have er : dot_S32x512_S512x512_S32x512_1_0_0_1_n_n.rhsIdx (ix2 r c) ((contrEquiv1 dot_S32x512_S512x512_S32x512_1_0_0_1_n_n 512 rfl rfl).symm k) = ix2 k c :=
    funext fun a => Fin.ext (by
      match a with
      | ⟨0, _⟩ => exact (mm_featCol_r0 _ _).trans hk
      | ⟨1, _⟩ => exact mm_featCol_r1 _ _)
  rw [el, er]

/-! ## Position rows of the block's points j against the last two rows of the first weight matrix -/

theorem mm_posCol_l0 (i : S32x512.Idx) (q : dot_S32x2_S2x512_S32x512_1_0_0_1_n_n.contr.Idx) : (dot_S32x2_S2x512_S32x512_1_0_0_1_n_n.lhsIdx i q 0).val = (i 0).val := by
  unfold DotDims.lhsIdx
  rw [dif_neg (show ¬(0 : Fin S32x2.rank) ∈ dot_S32x2_S2x512_S32x512_1_0_0_1_n_n.lhsBatch by decide),
    dif_pos (show (0 : Fin S32x2.rank) ∈ dot_S32x2_S2x512_S32x512_1_0_0_1_n_n.lhsNonContracting by decide)]
  rfl
theorem mm_posCol_l1 (i : S32x512.Idx) (q : dot_S32x2_S2x512_S32x512_1_0_0_1_n_n.contr.Idx) : (dot_S32x2_S2x512_S32x512_1_0_0_1_n_n.lhsIdx i q 1).val = (q ⟨0, by decide⟩).val :=
  dot_S32x2_S2x512_S32x512_1_0_0_1_n_n.lhsIdx_val_of_single rfl i q
theorem mm_posCol_r0 (i : S32x512.Idx) (q : dot_S32x2_S2x512_S32x512_1_0_0_1_n_n.contr.Idx) : (dot_S32x2_S2x512_S32x512_1_0_0_1_n_n.rhsIdx i q 0).val = (q ⟨0, by decide⟩).val :=
  dot_S32x2_S2x512_S32x512_1_0_0_1_n_n.rhsIdx_val_of_single rfl i q
theorem mm_posCol_r1 (i : S32x512.Idx) (q : dot_S32x2_S2x512_S32x512_1_0_0_1_n_n.contr.Idx) : (dot_S32x2_S2x512_S32x512_1_0_0_1_n_n.rhsIdx i q 1).val = (i 1).val := by
  unfold DotDims.rhsIdx
  rw [dif_neg (show ¬(1 : Fin S2x512.rank) ∈ dot_S32x2_S2x512_S32x512_1_0_0_1_n_n.rhsBatch by decide),
    dif_pos (show (1 : Fin S2x512.rank) ∈ dot_S32x2_S2x512_S32x512_1_0_0_1_n_n.rhsNonContracting by decide)]
  rfl

/-- The product into the zero accumulator, read at row r and column c: the sum over the one contracted axis. -/
theorem mm_posCol (lhs : FVec Ideal S32x2 .bf16) (rhs : FVec Ideal S2x512 .bf16) (r : Fin 32) (c : Fin 512) :
    matmul (F := Ideal) dot_S32x2_S2x512_S32x512_1_0_0_1_n_n none lhs rhs (constant (F := Ideal) S32x512 .f32 0x00000000#32) (ix2 r c)
      = ∑ d : Fin 2, lhs (ix2 r d) * rhs (ix2 d c) := by
  refine (Ideal.matmul_constant_zero_apply dot_S32x2_S2x512_S32x512_1_0_0_1_n_n none lhs rhs (ix2 r c)).trans ?_
  rw [← Equiv.sum_comp (contrEquiv1 dot_S32x2_S2x512_S32x512_1_0_0_1_n_n 2 rfl rfl).symm]
  refine Finset.sum_congr rfl fun k _ => ?_
  have hk := contrEquiv1_symm_val dot_S32x2_S2x512_S32x512_1_0_0_1_n_n 2 rfl rfl k
  have el : dot_S32x2_S2x512_S32x512_1_0_0_1_n_n.lhsIdx (ix2 r c) ((contrEquiv1 dot_S32x2_S2x512_S32x512_1_0_0_1_n_n 2 rfl rfl).symm k) = ix2 r k :=
    funext fun a => Fin.ext (by
      match a with
      | ⟨0, _⟩ => exact mm_posCol_l0 _ _
      | ⟨1, _⟩ => exact (mm_posCol_l1 _ _).trans hk)
  have er : dot_S32x2_S2x512_S32x512_1_0_0_1_n_n.rhsIdx (ix2 r c) ((contrEquiv1 dot_S32x2_S2x512_S32x512_1_0_0_1_n_n 2 rfl rfl).symm k) = ix2 k c :=
    funext fun a => Fin.ext (by
      match a with
      | ⟨0, _⟩ => exact (mm_posCol_r0 _ _).trans hk
      | ⟨1, _⟩ => exact mm_posCol_r1 _ _)
  rw [el, er]

/-! ## The 4096 hidden rows against the second weight matrix -/

theorem mm_second_l0 (i : S4096x256.Idx) (q : dot_S4096x512_S512x256_S4096x256_1_0_0_1_n_n.contr.Idx) : (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl
theorem mm_second_l1 (i : S4096x256.Idx) (q : dot_S4096x512_S512x256_S4096x256_1_0_0_1_n_n.contr.Idx) : (dot_S4096x512_S512x256_S4096x256_1_0_0_1_n_n.lhsIdx i q 1).val = (q ⟨0, by decide⟩).val :=
  dot_S4096x512_S512x256_S4096x256_1_0_0_1_n_n.lhsIdx_val_of_single rfl i q
theorem mm_second_r0 (i : S4096x256.Idx) (q : dot_S4096x512_S512x256_S4096x256_1_0_0_1_n_n.contr.Idx) : (dot_S4096x512_S512x256_S4096x256_1_0_0_1_n_n.rhsIdx i q 0).val = (q ⟨0, by decide⟩).val :=
  dot_S4096x512_S512x256_S4096x256_1_0_0_1_n_n.rhsIdx_val_of_single rfl i q
theorem mm_second_r1 (i : S4096x256.Idx) (q : dot_S4096x512_S512x256_S4096x256_1_0_0_1_n_n.contr.Idx) : (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-- The product into the zero accumulator, read at row r and column c: the sum over the one contracted axis. -/
theorem mm_second (lhs : FVec Ideal S4096x512 .bf16) (rhs : FVec Ideal S512x256 .bf16) (r : Fin 4096) (c : Fin 256) :
    matmul (F := Ideal) dot_S4096x512_S512x256_S4096x256_1_0_0_1_n_n none lhs rhs (constant (F := Ideal) S4096x256 .f32 0x00000000#32) (ix2 r c)
      = ∑ d : Fin 512, lhs (ix2 r d) * rhs (ix2 d c) := by
  refine (Ideal.matmul_constant_zero_apply dot_S4096x512_S512x256_S4096x256_1_0_0_1_n_n none lhs rhs (ix2 r c)).trans ?_
  rw [← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 r c) ((contrEquiv1 dot_S4096x512_S512x256_S4096x256_1_0_0_1_n_n 512 rfl rfl).symm k) = ix2 r k :=
    funext fun a => Fin.ext (by
      match a with
      | ⟨0, _⟩ => exact mm_second_l0 _ _
      | ⟨1, _⟩ => exact (mm_second_l1 _ _).trans hk)
  have er : dot_S4096x512_S512x256_S4096x256_1_0_0_1_n_n.rhsIdx (ix2 r c) ((contrEquiv1 dot_S4096x512_S512x256_S4096x256_1_0_0_1_n_n 512 rfl rfl).symm k) = ix2 k c :=
    funext fun a => Fin.ext (by
      match a with
      | ⟨0, _⟩ => exact (mm_second_r0 _ _).trans hk
      | ⟨1, _⟩ => exact mm_second_r1 _ _)
  rw [el, er]

/-! ## The 4096 second-layer rows against the third weight matrix -/

theorem mm_third_l0 (i : S4096x4.Idx) (q : dot_S4096x256_S256x4_S4096x4_1_0_0_1_n_n.contr.Idx) : (dot_S4096x256_S256x4_S4096x4_1_0_0_1_n_n.lhsIdx i q 0).val = (i 0).val := by
  unfold DotDims.lhsIdx
  rw [dif_neg (show ¬(0 : Fin S4096x256.rank) ∈ dot_S4096x256_S256x4_S4096x4_1_0_0_1_n_n.lhsBatch by decide),
    dif_pos (show (0 : Fin S4096x256.rank) ∈ dot_S4096x256_S256x4_S4096x4_1_0_0_1_n_n.lhsNonContracting by decide)]
  rfl
theorem mm_third_l1 (i : S4096x4.Idx) (q : dot_S4096x256_S256x4_S4096x4_1_0_0_1_n_n.contr.Idx) : (dot_S4096x256_S256x4_S4096x4_1_0_0_1_n_n.lhsIdx i q 1).val = (q ⟨0, by decide⟩).val :=
  dot_S4096x256_S256x4_S4096x4_1_0_0_1_n_n.lhsIdx_val_of_single rfl i q
theorem mm_third_r0 (i : S4096x4.Idx) (q : dot_S4096x256_S256x4_S4096x4_1_0_0_1_n_n.contr.Idx) : (dot_S4096x256_S256x4_S4096x4_1_0_0_1_n_n.rhsIdx i q 0).val = (q ⟨0, by decide⟩).val :=
  dot_S4096x256_S256x4_S4096x4_1_0_0_1_n_n.rhsIdx_val_of_single rfl i q
theorem mm_third_r1 (i : S4096x4.Idx) (q : dot_S4096x256_S256x4_S4096x4_1_0_0_1_n_n.contr.Idx) : (dot_S4096x256_S256x4_S4096x4_1_0_0_1_n_n.rhsIdx i q 1).val = (i 1).val := by
  unfold DotDims.rhsIdx
  rw [dif_neg (show ¬(1 : Fin S256x4.rank) ∈ dot_S4096x256_S256x4_S4096x4_1_0_0_1_n_n.rhsBatch by decide),
    dif_pos (show (1 : Fin S256x4.rank) ∈ dot_S4096x256_S256x4_S4096x4_1_0_0_1_n_n.rhsNonContracting by decide)]
  rfl

/-- The product into the zero accumulator, read at row r and column c: the sum over the one contracted axis. -/
theorem mm_third (lhs : FVec Ideal S4096x256 .bf16) (rhs : FVec Ideal S256x4 .bf16) (r : Fin 4096) (c : Fin 4) :
    matmul (F := Ideal) dot_S4096x256_S256x4_S4096x4_1_0_0_1_n_n none lhs rhs (constant (F := Ideal) S4096x4 .f32 0x00000000#32) (ix2 r c)
      = ∑ d : Fin 256, lhs (ix2 r d) * rhs (ix2 d c) := by
  refine (Ideal.matmul_constant_zero_apply dot_S4096x256_S256x4_S4096x4_1_0_0_1_n_n none lhs rhs (ix2 r c)).trans ?_
  rw [← Equiv.sum_comp (contrEquiv1 dot_S4096x256_S256x4_S4096x4_1_0_0_1_n_n 256 rfl rfl).symm]
  refine Finset.sum_congr rfl fun k _ => ?_
  have hk := contrEquiv1_symm_val dot_S4096x256_S256x4_S4096x4_1_0_0_1_n_n 256 rfl rfl k
  have el : dot_S4096x256_S256x4_S4096x4_1_0_0_1_n_n.lhsIdx (ix2 r c) ((contrEquiv1 dot_S4096x256_S256x4_S4096x4_1_0_0_1_n_n 256 rfl rfl).symm k) = ix2 r k :=
    funext fun a => Fin.ext (by
      match a with
      | ⟨0, _⟩ => exact mm_third_l0 _ _
      | ⟨1, _⟩ => exact (mm_third_l1 _ _).trans hk)
  have er : dot_S4096x256_S256x4_S4096x4_1_0_0_1_n_n.rhsIdx (ix2 r c) ((contrEquiv1 dot_S4096x256_S256x4_S4096x4_1_0_0_1_n_n 256 rfl rfl).symm k) = ix2 k c :=
    funext fun a => Fin.ext (by
      match a with
      | ⟨0, _⟩ => exact (mm_third_r0 _ _).trans hk
      | ⟨1, _⟩ => exact mm_third_r1 _ _)
  rw [el, er]

end Cert.KernelIdeal.PayValue

end
-- ==== Proof.PayLayout.lean ====
/-
  The re-layings of the kernel body that are not a leading unit axis, each read at one entry.

  The body forms the first layer for all 128 × 32 pairs (i, j) at once as a [128, 32, 512] array: the row term, a
  [128, 512] array, is viewed as [128, 1, 512] and repeated along the middle axis; the column term, a [32, 512] array, is
  viewed as [1, 32, 512] and repeated along the leading axis. The later layers work on the flattened [4096, ·] layout, in
  which the pair (i, j) is row 32·i + j, and the [4096, 4] result is cut back to [128, 32, 4] and then to [128, 128], in
  which column j and channel o share lane 4·j + o. A reshape keeps the row-major position of an entry, so each of these
  statements is an identity between two row-major positions, which is linear arithmetic.
-/
import proofs.«116609_j48808008351770_2_alg».proof.Proof.Gen.KernelIdeal.Skeleton
import Idealize.ShloMosaic.Lib.ValueIdx
import Idealize.ShloMosaic.Lib.Pipeline.Value

noncomputable section

namespace Cert.KernelIdeal.PayValue

open Idealize.ShloMosaic Idealize.ShloMosaic.ValueIdx Cert.KernelIdeal
open scoped BigOperators

section Layout
variable {α : Type}

/-- A [128, 512] array viewed as [128, 1, 512]: entry (i, u, k) is entry (i, k). -/
theorem cast_rows_unit (x : S128x512.Idx → α) (h : S128x512.ShapeCasts S128x1x512) (i : Fin 128) (u : Fin 1) (k : Fin 512) :
    shapeCast S128x1x512 x h (ix3 i u k) = x (ix2 i k) :=
  shapeCast_apply x h _ _ (by
    have hu : u.val = 0 := by omega
    rw [Shape.rowMajor_val_two, Shape.rowMajor_val_three]
    show i.val * 512 + k.val = (i.val * 1 + u.val) * 512 + k.val
    rw [hu]; omega)

/-- A [128, 1, 512] array repeated along its middle axis: entry (i, j, k) is entry (i, 0, k). -/
theorem bcast_mid (x : S128x1x512.Idx → α) (h : S128x1x512.Broadcasts S128x32x512) (i : Fin 128) (j : Fin 32) (k : Fin 512) :
    broadcastTo S128x32x512 x h (ix3 i j k) = x (ix3 i (0 : Fin 1) k) := by
  refine broadcastTo_apply x h (ix3 i j k) (ix3 i (0 : Fin 1) k) fun ax => ?_
  match ax with
  | ⟨0, _⟩ => rfl
  | ⟨1, _⟩ => rfl
  | ⟨2, _⟩ => rfl

/-- A [1, 32, 512] array repeated along its leading axis: entry (i, j, k) is entry (0, j, k). -/
theorem bcast_lead (x : S1x32x512.Idx → α) (h : S1x32x512.Broadcasts S128x32x512) (i : Fin 128) (j : Fin 32) (k : Fin 512) :
    broadcastTo S128x32x512 x h (ix3 i j k) = x (ix3 (0 : Fin 1) j k) := by
  refine broadcastTo_apply x h (ix3 i j k) (ix3 (0 : Fin 1) j k) fun ax => ?_
  match ax with
  | ⟨0, _⟩ => rfl
  | ⟨1, _⟩ => rfl
  | ⟨2, _⟩ => rfl

/-- The pair (i, j) of the [128, 32, ·] layout sits at row 32·i + j of the flattened [4096, ·] layout. -/
def flatRow (i : Fin 128) (j : Fin 32) : Fin 4096 := ⟨32 * i.val + j.val, by omega⟩

/-- Column j of the block and channel o sit at lane 4·j + o of a [·, 128] row. -/
def lane (j : Fin 32) (o : Fin 4) : Fin 128 := ⟨4 * j.val + o.val, by omega⟩

/-- [128, 32, 512] flattened to [4096, 512]: row 32·i + j, entry k, is entry (i, j, k). -/
theorem cast_flatten (x : S128x32x512.Idx → α) (h : S128x32x512.ShapeCasts S4096x512) (i : Fin 128) (j : Fin 32) (k : Fin 512) :
    shapeCast S4096x512 x h (ix2 (flatRow i j) k) = x (ix3 i j k) :=
  shapeCast_apply x h _ _ (by
    rw [Shape.rowMajor_val_three, Shape.rowMajor_val_two]
    show (i.val * 32 + j.val) * 512 + k.val = (32 * i.val + j.val) * 512 + k.val
    omega)

/-- [4096, 4] cut back to [128, 32, 4]: entry (i, j, o) is row 32·i + j, entry o. -/
theorem cast_unflatten (x : S4096x4.Idx → α) (h : S4096x4.ShapeCasts S128x32x4) (i : Fin 128) (j : Fin 32) (o : Fin 4) :
    shapeCast S128x32x4 x h (ix3 i j o) = x (ix2 (flatRow i j) o) :=
  shapeCast_apply x h _ _ (by
    rw [Shape.rowMajor_val_three, Shape.rowMajor_val_two]
    show (32 * i.val + j.val) * 4 + o.val = (i.val * 32 + j.val) * 4 + o.val
    omega)

/-- [128, 32, 4] with its last two axes merged into [128, 128]: entry (i, 4·j + o) is entry (i, j, o). -/
theorem cast_merge (x : S128x32x4.Idx → α) (h : S128x32x4.ShapeCasts S128x128) (i : Fin 128) (j : Fin 32) (o : Fin 4) :
    shapeCast S128x128 x h (ix2 i (lane j o)) = x (ix3 i j o) :=
  shapeCast_apply x h _ _ (by
    rw [Shape.rowMajor_val_three, Shape.rowMajor_val_two]
    show (i.val * 32 + j.val) * 4 + o.val = i.val * 128 + (4 * j.val + o.val)
    omega)

end Layout

end Cert.KernelIdeal.PayValue

end
-- ==== Proof.PayHidden.lean ====
/-
  The first layer before its positive part, for the pair (i, j) and hidden entry k.

  Entry (i, j, k) of the [128, 32, 512] array the body forms is the row term at (i, k) plus the column term at (j, k).
  The row term is the product of the features of i with the first 512 rows of the first weight matrix, plus the product
  of the position of i with its last two rows, plus the bias; the column term is the product of the features of j with
  rows 512 to 1023, minus the product of the position of j with the last two rows. Rounding to the narrower float format
  before each product changes nothing on exact values.
-/
import proofs.«116609_j48808008351770_2_alg».proof.Proof.PayDots
import proofs.«116609_j48808008351770_2_alg».proof.Proof.PayLayout
import Idealize.ShloMosaic.Lib.ValueLayout

noncomputable section

namespace Cert.KernelIdeal.PayValue

open Idealize.ShloMosaic Idealize.ShloMosaic.ValueIdx Cert.KernelIdeal
open scoped BigOperators

/-- The first layer's pre-activation at (i, j, k): (features of i · Wa + position of i · Wc + bias) + (features of j · Wb − position of j · Wc). -/
theorem hidden_apply (v0 : Vec Ideal S1x128x512 .f32) (v2 : Vec Ideal S1x32x512 .f32) (v4 : Vec Ideal S1x128x2 .f32)
    (v6 : Vec Ideal S1x32x2 .f32) (v8 v9 : Vec Ideal S512x512 .f32) (v10 : Vec Ideal S2x512 .f32) (v17 : Vec Ideal S512 .f32)
    (i : Fin 128) (j : Fin 32) (k : Fin 512) :
    Gen.k0_pay2 (F := Ideal) v0 v2 v4 v6 v8 v9 v10 v17 (ix3 i j k)
      = (((∑ d : Fin 512, v0 (ix3 0 i d) * v8 (ix2 d k)) + (∑ p : Fin 2, v4 (ix3 0 i p) * v10 (ix2 p k))) + v17 (ix1 k))
        + ((∑ d : Fin 512, v2 (ix3 0 j d) * v9 (ix2 d k)) - (∑ p : Fin 2, v6 (ix3 0 j p) * v10 (ix2 p k))) := by
  unfold Gen.k0_pay2
  -- the sum of the two repeated arrays, each read where it was before being repeated
  refine (addf_apply _ _ _).trans ?_
  refine (congrArg₂ (· + ·) (bcast_mid _ _ i j k) (bcast_lead _ _ i j k)).trans ?_
  refine (congrArg₂ (· + ·) (cast_rows_unit _ _ i 0 k) (shapeCast_ab_1ab_apply _ _ 0 j k)).trans ?_
  refine congrArg₂ (· + ·) ?_ ?_
  · -- the row term at (i, k)
    refine (addf_apply _ _ _).trans ?_
    refine congrArg₂ (· + ·) ?_ ?_
    · refine (addf_apply _ _ _).trans ?_
      refine congrArg₂ (· + ·) ?_ ?_
      · refine (mm_featRow _ _ i k).trans ?_
        refine Finset.sum_congr rfl fun d _ => ?_
        exact congrArg (· * v8 (ix2 d k)) (shapeCast_1ab_ab_apply v0 _ i d)
      · refine (mm_posRow _ _ i k).trans ?_
        refine Finset.sum_congr rfl fun p _ => ?_
        exact congrArg (· * v10 (ix2 p k)) (shapeCast_1ab_ab_apply v4 _ i p)
    · refine (broadcastTo_1b_ab_apply _ _ i k).trans ?_
      exact shapeCast_a_1a_apply v17 _ 0 k
  · -- the column term at (j, k)
    refine (subf_apply _ _ _).trans ?_
    refine congrArg₂ (· - ·) ?_ ?_
    · refine (mm_featCol _ _ j k).trans ?_
      refine Finset.sum_congr rfl fun d _ => ?_
      exact congrArg (· * v9 (ix2 d k)) (shapeCast_1ab_ab_apply v2 _ j d)
    · refine (mm_posCol _ _ j k).trans ?_
      refine Finset.sum_congr rfl fun p _ => ?_
      exact congrArg (· * v10 (ix2 p k)) (shapeCast_1ab_ab_apply v6 _ j p)

end Cert.KernelIdeal.PayValue

end
-- ==== Proof.PayTail.lean ====
/-
  The two later layers, for the pair (i, j) and output channel o, as a function of an arbitrary first-layer array.

  The body takes the positive part of the [128, 32, 512] first-layer array H, flattens it to 4096 rows (row 32·i + j is
  the pair (i, j)), multiplies by the second weight matrix and adds the second bias, takes the positive part, multiplies
  by the third weight matrix and adds the third bias, and lays the [4096, 4] result out as [1, 128, 128] with column j and
  channel o at lane 4·j + o. Read at (0, i, 4·j + o) this is the later layers applied to the hidden vector
  k ↦ max (H (i, j, k)) 0 of that one pair.
-/
import proofs.«116609_j48808008351770_2_alg».proof.Proof.PayDots
import proofs.«116609_j48808008351770_2_alg».proof.Proof.PayLayout
import proofs.«116609_j48808008351770_2_alg».proof.Proof.Spec
import Idealize.ShloMosaic.Lib.ValueLayout

noncomputable section

namespace Cert.KernelIdeal.PayValue

open Idealize.ShloMosaic Idealize.ShloMosaic.ValueIdx Cert.KernelIdeal
open scoped BigOperators

/-- Entry (0, i, 4·j + o) of the stored block is the later layers of the pair's hidden vector at channel o. -/
theorem tail_apply (H : FVec Ideal S128x32x512 .f32) (v38 : Vec Ideal S512x256 .f32) (v41 : Vec Ideal S256 .f32) (v48 : Vec Ideal S256x4 .f32) (v51 : Vec Ideal S4 .f32)
    (i : Fin 128) (j : Fin 32) (o : Fin 4) :
    Gen.k0_pay1 (F := Ideal) H (Scalar.ofBits .f32 0x00000000#32) v38 v41 v48 v51 (ix3 0 i (lane j o))
      = Cert.Spec.tail (fun k l => v38 (ix2 k l)) (fun l => v41 (ix1 l)) (fun l o => v48 (ix2 l o)) (fun o => v51 (ix1 o))
          (fun k => max (H (ix3 i j k)) 0) o := by
  unfold Gen.k0_pay1
  -- back through the three re-layings of the result to row 32·i + j, entry o, of the [4096, 4] array
  refine (shapeCast_ab_1ab_apply _ _ 0 i (lane j o)).trans ?_
  refine (cast_merge _ _ i j o).trans ?_
  refine (cast_unflatten _ _ i j o).trans ?_
  refine (addf_apply _ _ _).trans ?_
  unfold Cert.Spec.tail
  refine congrArg₂ (· + ·) ?_ ?_
  · -- the third layer's product
    refine (mm_third _ _ (flatRow i j) o).trans ?_
    refine Finset.sum_congr rfl fun l _ => ?_
    refine congrArg (· * v48 (ix2 l o)) ?_
    -- the second layer at (32·i + j, l)
    refine (maximumf_apply _ _ _).trans ?_
    refine congrArg₂ max ?_ Ideal.ofBits_zero_f32
    refine (addf_apply _ _ _).trans ?_
    refine congrArg₂ (· + ·) ?_ ?_
    · refine (mm_second _ _ (flatRow i j) l).trans ?_
      refine Finset.sum_congr rfl fun k _ => ?_
      refine congrArg (· * v38 (ix2 k l)) ?_
      -- the flattened positive part of H at (32·i + j, k)
      refine (truncf_apply (ψ := .bf16) (φ := .f32) _ Gen.bitsLt_bf16_f32 _).trans ?_
      refine (cast_flatten _ _ i j k).trans ?_
      refine (maximumf_apply _ _ _).trans ?_
      exact congrArg (max (H (ix3 i j k))) Ideal.ofBits_zero_f32
    · refine (broadcastTo_1b_ab_apply _ _ (flatRow i j) l).trans ?_
      exact shapeCast_a_1a_apply v41 _ 0 l
  · refine (broadcastTo_1b_ab_apply _ _ (flatRow i j) o).trans ?_
    exact shapeCast_a_1a_apply v51 _ 0 o

end Cert.KernelIdeal.PayValue

end
-- ==== Proof.PayValue.lean ====
/-
  The value the kernel body stores, read at one entry.

  The body stores one [1, 128, 128] block per grid point. Its entry (0, i, 4·j + o) belongs to the pair formed by point i of
  the batch element and point j of the block, and to output channel o: it is the two later layers applied to the positive
  part of the first layer, the first layer arranged as a row term plus a column term. Conversely every lane q of a row
  splits as q = 4·(q / 4) + q % 4, so every entry of the block is of this form.
-/
import proofs.«116609_j48808008351770_2_alg».proof.Proof.PayHidden
import proofs.«116609_j48808008351770_2_alg».proof.Proof.PayTail

noncomputable section

namespace Cert.KernelIdeal.PayValue

open Idealize.ShloMosaic Idealize.ShloMosaic.ValueIdx Cert.KernelIdeal
open scoped BigOperators

/-- Entry (0, i, 4·j + o) of the stored block: the later layers of the pair's first hidden layer, row term plus column term. -/
theorem pay_apply (v0 : Vec Ideal S1x128x512 .f32) (v2 : Vec Ideal S1x32x512 .f32) (v4 : Vec Ideal S1x128x2 .f32)
    (v6 : Vec Ideal S1x32x2 .f32) (v8 v9 : Vec Ideal S512x512 .f32) (v10 : Vec Ideal S2x512 .f32) (v17 : Vec Ideal S512 .f32)
    (v38 : Vec Ideal S512x256 .f32) (v41 : Vec Ideal S256 .f32) (v48 : Vec Ideal S256x4 .f32) (v51 : Vec Ideal S4 .f32)
    (i : Fin 128) (j : Fin 32) (o : Fin 4) (h : 4 * j.val + o.val < 128) :
    Gen.k0_pay1 (F := Ideal) (Gen.k0_pay2 v0 v2 v4 v6 v8 v9 v10 v17) (Scalar.ofBits .f32 0x00000000#32) v38 v41 v48 v51
        (ix3 0 i ⟨4 * j.val + o.val, h⟩)
      = Cert.Spec.tail (fun k l => v38 (ix2 k l)) (fun l => v41 (ix1 l)) (fun l o => v48 (ix2 l o)) (fun o => v51 (ix1 o))
          (Cert.Spec.hidK (fun d => v0 (ix3 0 i d)) (fun d => v2 (ix3 0 j d)) (fun p => v4 (ix3 0 i p)) (fun p => v6 (ix3 0 j p))
            (fun d k => v8 (ix2 d k)) (fun d k => v9 (ix2 d k)) (fun p k => v10 (ix2 p k)) (fun k => v17 (ix1 k))) o := by
  refine (tail_apply (Gen.k0_pay2 v0 v2 v4 v6 v8 v9 v10 v17) v38 v41 v48 v51 i j o).trans ?_
  refine congrArg (fun hid => Cert.Spec.tail (fun k l => v38 (ix2 k l)) (fun l => v41 (ix1 l)) (fun l o => v48 (ix2 l o))
    (fun o => v51 (ix1 o)) hid o) ?_
  funext k
  exact congrArg (max · 0) (hidden_apply v0 v2 v4 v6 v8 v9 v10 v17 i j k)

/-- Every entry (0, i, q) of the stored block: lane q is column q / 4 of the block and channel q % 4. -/
theorem pay_apply' (v0 : Vec Ideal S1x128x512 .f32) (v2 : Vec Ideal S1x32x512 .f32) (v4 : Vec Ideal S1x128x2 .f32)
    (v6 : Vec Ideal S1x32x2 .f32) (v8 v9 : Vec Ideal S512x512 .f32) (v10 : Vec Ideal S2x512 .f32) (v17 : Vec Ideal S512 .f32)
    (v38 : Vec Ideal S512x256 .f32) (v41 : Vec Ideal S256 .f32) (v48 : Vec Ideal S256x4 .f32) (v51 : Vec Ideal S4 .f32)
    (i : Fin 128) (q : Fin 128) :
    Gen.k0_pay1 (F := Ideal) (Gen.k0_pay2 v0 v2 v4 v6 v8 v9 v10 v17) (Scalar.ofBits .f32 0x00000000#32) v38 v41 v48 v51
        (ix3 0 i q)
      = Cert.Spec.tail (fun k l => v38 (ix2 k l)) (fun l => v41 (ix1 l)) (fun l o => v48 (ix2 l o)) (fun o => v51 (ix1 o))
          (Cert.Spec.hidK (fun d => v0 (ix3 0 i d)) (fun d => v2 (ix3 0 (⟨q.val / 4, by omega⟩ : Fin 32) d))
            (fun p => v4 (ix3 0 i p)) (fun p => v6 (ix3 0 (⟨q.val / 4, by omega⟩ : Fin 32) p))
            (fun d k => v8 (ix2 d k)) (fun d k => v9 (ix2 d k)) (fun p k => v10 (ix2 p k)) (fun k => v17 (ix1 k)))
          (⟨q.val % 4, by omega⟩ : Fin 4) := by
  have hq : q = (⟨4 * (q.val / 4) + q.val % 4, by omega⟩ : Fin 128) := Fin.ext (by
    show q.val = 4 * (q.val / 4) + q.val % 4
    omega)
  refine (congrArg (fun t : Fin 128 => Gen.k0_pay1 (F := Ideal) (Gen.k0_pay2 v0 v2 v4 v6 v8 v9 v10 v17)
    (Scalar.ofBits .f32 0x00000000#32) v38 v41 v48 v51 (ix3 0 i t)) hq).trans ?_
  exact pay_apply v0 v2 v4 v6 v8 v9 v10 v17 v38 v41 v48 v51 i ⟨q.val / 4, by omega⟩ ⟨q.val % 4, by omega⟩ _

end Cert.KernelIdeal.PayValue

end
-- ==== Proof.ArrFinal.lean ====
/-
  An entry of the output array as the pair function of the argument arrays.

  Lane q of a row of the output array splits as q = 4 · jg + o: point jg of the batch and output channel o. Point jg
  lies in column block jg / 32 at column jg % 32 of the block, so the entry is lane 4 · (jg % 32) + o of that block's
  row, and the stored value there is the later layers of the first hidden layer of the pair (i, jg), the first layer
  arranged as a row term plus a column term. The body loads each staging buffer whole, the first weight matrix as
  its three row blocks (rows 0 … 511, 512 … 1023 and 1024, 1025).
-/
import proofs.«116609_j48808008351770_2_alg».proof.Proof.ArrValue
import proofs.«116609_j48808008351770_2_alg».proof.Proof.PayValue

noncomputable section

namespace Cert.KernelIdeal.ArrValue

open Cert.KernelIdeal Cert.KernelIdeal.Gen Cert.KernelIdeal.Body Cert.KernelIdeal.ArrBlocks
open Idealize.ShloMosaic Idealize.ShloMosaic.TcCoe Idealize.SL.Sem
open Idealize.ShloMosaic.Pipeline (Dat)
open Idealize.ShloMosaic.ValueIdx

/-! ## The loads through the rectangles -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

section Loads
variable {F : FTy → Type} [FloatOps F]

/-- Rows 0 … 511 of the first weight matrix. -/
theorem ld_r4a (x4 : Vec F S1026x512 .f32) (d k : Fin 512) :
    (View.ld x4 r4a : S512x512.Idx → Elt F .f32) (ix2 d k) = x4 (ix2 (⟨d.val, by omega⟩ : Fin 1026) k) := by
  show x4 (r4a.idx (ix2 d k)) = _
  congr 1
  funext a; apply Fin.ext
  match a with
  | ⟨0, _⟩ => show 0 + 1 * d.val = d.val; omega
  | ⟨1, _⟩ => show 0 + 1 * k.val = k.val; omega

/-- Rows 512 … 1023 of the first weight matrix. -/
theorem ld_r4b (x4 : Vec F S1026x512 .f32) (d k : Fin 512) :
    (View.ld x4 r4b : S512x512.Idx → Elt F .f32) (ix2 d k) = x4 (ix2 (⟨512 + d.val, by omega⟩ : Fin 1026) k) := by
  show x4 (r4b.idx (ix2 d k)) = _
  congr 1
  funext a; apply Fin.ext
  match a with
  | ⟨0, _⟩ => show 512 + 1 * d.val = 512 + d.val; omega
  | ⟨1, _⟩ => show 0 + 1 * k.val = k.val; omega

/-- Rows 1024, 1025 of the first weight matrix. -/
theorem ld_r4c (x4 : Vec F S1026x512 .f32) (p : Fin 2) (k : Fin 512) :
    (View.ld x4 r4c : S2x512.Idx → Elt F .f32) (ix2 p k) = x4 (ix2 (⟨1024 + p.val, by omega⟩ : Fin 1026) k) := by
  show x4 (r4c.idx (ix2 p k)) = _
  congr 1
  funext a; apply Fin.ext
  match a with
  | ⟨0, _⟩ => show 1024 + 1 * p.val = 1024 + p.val; omega
  | ⟨1, _⟩ => show 0 + 1 * k.val = k.val; omega

/-- The stored value with the whole-buffer loads read: the body's payload of the ten buffers, the first weight
    matrix as its three row blocks. -/
theorem out10_eq (x0 : Vec F S1x128x512 .f32) (x1 : Vec F S1x32x512 .f32) (x2 : Vec F S1x128x2 .f32) (x3 : Vec F S1x32x2 .f32)
    (x4 : Vec F S1026x512 .f32) (x5 : Vec F S512 .f32) (x6 : Vec F S512x256 .f32) (x7 : Vec F S256 .f32) (x8 : Vec F S256x4 .f32)
    (x9 : Vec F S4 .f32) :
    out10 x0 x1 x2 x3 x4 x5 x6 x7 x8 x9
      = k0_pay1 (k0_pay2 x0 x1 x2 x3 (View.ld x4 r4a) (View.ld x4 r4b) (View.ld x4 r4c) x5)
          (Scalar.ofBits .f32 0x00000000#32) x6 x7 x8 x9 := by
  unfold out10
  rw [View.canon_unit_zero hz3]
  simp only [View.ld_unit_zero (S := S1x128x512) hz3, View.ld_unit_zero (S := S1x32x512) hz3, View.ld_unit_zero (S := S1x128x2) hz3,
    View.ld_unit_zero (S := S1x32x2) hz3, View.ld_unit_zero (S := S512) hz1, View.ld_unit_zero (S := S512x256) hz2,
    View.ld_unit_zero (S := S256) hz1, View.ld_unit_zero (S := S256x4) hz2, View.ld_unit_zero (S := S4) hz1]

end Loads

/-! ## An entry of a point's block, and of the output array, as the pair function of the argument arrays -/

/-- The first hidden layer depends on the first weight matrix only through its three row blocks. -/
theorem hidK_congr {a c : Fin 512 → EReal} {u v : Fin 2 → EReal} {Wa Wa' Wb Wb' : Fin 512 → Fin 512 → EReal}
    {Wc Wc' : Fin 2 → Fin 512 → EReal} {b1 : Fin 512 → EReal} (ha : Wa = Wa') (hb : Wb = Wb') (hc : Wc = Wc') :
    Cert.Spec.hidK a c u v Wa Wb Wc b1 = Cert.Spec.hidK a c u v Wa' Wb' Wc' b1 := by
  subst ha hb hc; rfl

/-- Entry (0, i, y) of the block of batch b and column block jj, where lane y = 4 · j + o is channel o of the
    block's column j, the point jg = 32 · jj + j of the batch: the later layers of the first hidden layer of the
    pair (i, jg), row term plus column term, on the argument arrays. -/
theorem blockOf_apply (m : (ℓ : Loc nD τ sig) → Buf (Elt Ideal) ℓ) (c : Dev nD) (b : Fin 8) (jj : Fin 4) (i jg : Fin 128)
    (y : Fin 128) (j : Fin 32) (o : Fin 4) (hjg : jg.val = 32 * jj.val + j.val) (hy : y.val = 4 * j.val + o.val) :
    blockOf m c b jj (ix3 (0 : Fin 1) i y)
      = Cert.Spec.tail (fun k l => m ((c.tc : Thread nD τ).loc main_arg4) (ix2 k l)) (fun l => m ((c.tc : Thread nD τ).loc main_arg5) (ix1 l))
          (fun l o => m ((c.tc : Thread nD τ).loc main_arg6) (ix2 l o)) (fun o => m ((c.tc : Thread nD τ).loc main_arg7) (ix1 o))
          (Cert.Spec.hidK (fun d => m ((c.tc : Thread nD τ).loc main_arg0) (ix3 b i d)) (fun d => m ((c.tc : Thread nD τ).loc main_arg0) (ix3 b jg d))
            (fun p => m ((c.tc : Thread nD τ).loc main_arg1) (ix3 b i p)) (fun p => m ((c.tc : Thread nD τ).loc main_arg1) (ix3 b jg p))
            (fun d k => m ((c.tc : Thread nD τ).loc main_arg2) (ix2 (⟨d.val, by omega⟩ : Fin 1026) k))
            (fun d k => m ((c.tc : Thread nD τ).loc main_arg2) (ix2 (⟨512 + d.val, by omega⟩ : Fin 1026) k))
            (fun p k => m ((c.tc : Thread nD τ).loc main_arg2) (ix2 (⟨1024 + p.val, by omega⟩ : Fin 1026) k))
            (fun k => m ((c.tc : Thread nD τ).loc main_arg3) (ix1 k))) o := by
  have hj32 : j.val < 32 := j.isLt
  have ho4 : o.val < 4 := o.isLt
  have hjj4 : jj.val < 4 := jj.isLt
  have h1 : 4 * j.val + o.val < 128 := by clear hy hjg; omega
  have h2 : 32 * jj.val + j.val < 128 := by clear hy hjg; omega
  obtain rfl : y = ⟨4 * j.val + o.val, h1⟩ := Fin.ext hy
  obtain rfl : jg = ⟨32 * jj.val + j.val, h2⟩ := Fin.ext hjg
  unfold blockOf
  rw [out10_eq]
  refine (PayValue.pay_apply _ _ _ _ _ _ _ _ _ _ _ _ i j o _).trans ?_
  have e8 : (fun (d k : Fin 512) => (View.ld (A2 m c) r4a : S512x512.Idx → Elt Ideal .f32) (ix2 d k))
      = fun (d k : Fin 512) => m ((c.tc : Thread nD τ).loc main_arg2) (ix2 (⟨d.val, by omega⟩ : Fin 1026) k) :=
    funext fun d => funext fun k => ld_r4a _ d k
  have e9 : (fun (d k : Fin 512) => (View.ld (A2 m c) r4b : S512x512.Idx → Elt Ideal .f32) (ix2 d k))
      = fun (d k : Fin 512) => m ((c.tc : Thread nD τ).loc main_arg2) (ix2 (⟨512 + d.val, by omega⟩ : Fin 1026) k) :=
    funext fun d => funext fun k => ld_r4b _ d k
  have e10 : (fun (p : Fin 2) (k : Fin 512) => (View.ld (A2 m c) r4c : S2x512.Idx → Elt Ideal .f32) (ix2 p k))
      = fun (p : Fin 2) (k : Fin 512) => m ((c.tc : Thread nD τ).loc main_arg2) (ix2 (⟨1024 + p.val, by omega⟩ : Fin 1026) k) :=
    funext fun p => funext fun k => ld_r4c _ p k
  exact congrArg (fun h => Cert.Spec.tail _ _ _ _ h o) (hidK_congr e8 e9 e10)

/-- THE OUTPUT ARRAY AFTER THE RUN, entry (b, i, 4 · jg + o): channel o of the pair (i, jg) of batch b — the
    later layers of the pair's first hidden layer, row term plus column term, on the argument arrays. -/
theorem final_apply (m : (ℓ : Loc nD τ sig) → Buf (Elt Ideal) ℓ) (c : Dev nD) (b : Fin 8) (i jg : Fin 128) (o : Fin 4) :
    (Cert.KernelIdeal.Body.dats m 0 c).arrAt 10 cfg0.N (ix3 b i (⟨4 * jg.val + o.val, by omega⟩ : Fin 512))
      = Cert.Spec.tail (fun k l => m ((c.tc : Thread nD τ).loc main_arg4) (ix2 k l)) (fun l => m ((c.tc : Thread nD τ).loc main_arg5) (ix1 l))
          (fun l o => m ((c.tc : Thread nD τ).loc main_arg6) (ix2 l o)) (fun o => m ((c.tc : Thread nD τ).loc main_arg7) (ix1 o))
          (Cert.Spec.hidK (fun d => m ((c.tc : Thread nD τ).loc main_arg0) (ix3 b i d)) (fun d => m ((c.tc : Thread nD τ).loc main_arg0) (ix3 b jg d))
            (fun p => m ((c.tc : Thread nD τ).loc main_arg1) (ix3 b i p)) (fun p => m ((c.tc : Thread nD τ).loc main_arg1) (ix3 b jg p))
            (fun d k => m ((c.tc : Thread nD τ).loc main_arg2) (ix2 (⟨d.val, by omega⟩ : Fin 1026) k))
            (fun d k => m ((c.tc : Thread nD τ).loc main_arg2) (ix2 (⟨512 + d.val, by omega⟩ : Fin 1026) k))
            (fun p k => m ((c.tc : Thread nD τ).loc main_arg2) (ix2 (⟨1024 + p.val, by omega⟩ : Fin 1026) k))
            (fun k => m ((c.tc : Thread nD τ).loc main_arg3) (ix1 k))) o := by
  have hjg : jg.val < 128 := jg.isLt
  have ho : o.val < 4 := o.isLt
  rw [arr_apply]
  exact blockOf_apply m c b _ i jg _ ⟨jg.val % 32, Nat.mod_lt _ (by decide)⟩ o
    (by show jg.val = 32 * ((4 * jg.val + o.val) / 128) + jg.val % 32; omega)
    (by show (4 * jg.val + o.val) % 128 = 4 * (jg.val % 32) + o.val; omega)

end Cert.KernelIdeal.ArrValue
end
-- ==== Proof.lean ====
/-
  The certificate's claims, assembled.

  The kernel computes, for every batch element and every ordered pair of points (i, j), a three-layer network of the
  two feature rows and the two position rows, one grid point handling all 128 rows i against a block of 32 columns j
  and storing the four outputs of each pair side by side in one row of 128 entries; a reshape after the region turns
  those rows into the [8, 128, 128, 4] result. The reference computes the same network with plain array operations.
  The two differ only in how the first layer's sum is arranged (Spec.lean), and agree on finite inputs.
-/
import proofs.«116609_j48808008351770_2_alg».proof.Defs
import proofs.«116609_j48808008351770_2_alg».proof.Proof.Gen.Kernel
import proofs.«116609_j48808008351770_2_alg».proof.Proof.Gen.KernelIdeal
import proofs.«116609_j48808008351770_2_alg».proof.Proof.Gen.ReferenceIdeal
import proofs.«116609_j48808008351770_2_alg».proof.Proof.Gen.Pre_finite_inputs
import proofs.«116609_j48808008351770_2_alg».proof.Proof.RunBits
import proofs.«116609_j48808008351770_2_alg».proof.Proof.RunIdeal
import proofs.«116609_j48808008351770_2_alg».proof.Proof.RefValue
import proofs.«116609_j48808008351770_2_alg».proof.Proof.Bridge
import proofs.«116609_j48808008351770_2_alg».proof.Proof.Finite
import proofs.«116609_j48808008351770_2_alg».proof.Proof.TailValue
import proofs.«116609_j48808008351770_2_alg».proof.Proof.ArrFinal
import Idealize.ShloMosaic.Adequacy
import Idealize.ShloMosaic.Init

noncomputable section

namespace Cert.Proof

open Idealize.ShloMosaic Idealize.ShloMosaic.TcCoe Idealize.SL.Sem Idealize.ShloMosaic.ValueIdx

/-! ## The three frames

Each kernel program runs to the end without a fault and leaves its eight argument arrays as they were (the run of
the region and of the reshape after it); the reference is a straight line of host operations, and its run leaves
the arguments alone. -/

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.RefValue.run_spec m ρ)

/-- The idealized kernel is the kernel's own text read over the extended reals: no operation was rewritten. -/
theorem preserves : Cert.preserves_Kernel_KernelIdeal := trivial

/-! ## The two results are equal

At the index (b, i, j, o) the kernel's result is entry (b, i, 4·j + o) of the array its output window wrote, which
is the three-layer network of the pair (i, j) with the first layer arranged as a row term plus a column term; the
reference's result is the same network with the first layer arranged around the position difference. The
positions and the weights being finite, the two arrangements of the first layer are equal, and the later layers are
the same function of it. -/

open Cert.KernelIdeal in
theorem result_eq (m : (ℓ : Loc Cert.KernelIdeal.nD Cert.KernelIdeal.τ Cert.KernelIdeal.sig) → Buf (Elt Ideal) ℓ) (hpre : Cert.Pre_KernelIdeal m)
    (c : Dev Cert.KernelIdeal.nD) :
    Cert.ReferenceIdeal.RefValue.refOut
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))
      = Cert.KernelIdeal.Run.Wfin m c (Proc.devRef .tc main_v1) := by
  funext idx
  obtain ⟨b, i, j, o, rfl⟩ : ∃ (b : Fin 8) (i j : Fin 128) (o : Fin 4), idx = ix4 b i j o := ⟨idx 0, idx 1, idx 2, idx 3, eq_ix4 idx⟩
  rw [Cert.ReferenceIdeal.RefValue.refOut_apply]
  refine Eq.symm ?_
  refine (Cert.KernelIdeal.TailValue.tail_apply (Cert.KernelIdeal.Run.W1 m c) b i j o).trans ?_
  rw [Cert.KernelIdeal.Run.W1_v0]
  refine (Cert.KernelIdeal.ArrValue.final_apply m c b i j o).trans ?_
  exact Cert.Spec.tail_hidK_eq_tail_hidR _ _ _ _ _ _ _ _ _ _ _ _
    (fun p => (Cert.KernelIdeal.Finite.real_of_pre m hpre c).1 _) (fun p => (Cert.KernelIdeal.Finite.real_of_pre m hpre c).1 _)
    (fun p k => (Cert.KernelIdeal.Finite.real_of_pre m hpre c).2 _) o

theorem algebraic : Cert.algebraic_KernelIdeal_ReferenceIdeal := by
  intro m ρ m' ρ' hpre hagree
  refine ⟨fun c => Cert.KernelIdeal.Run.Wfin m c (Proc.devRef .tc Cert.KernelIdeal.main_v1), ?_, ?_⟩
  · exact (θ_run Cert.KernelIdeal.defs _ _).mono (fun r h c =>
      ⟨(h c).2,
       ((h c).1 0).trans ((Cert.KernelIdeal.Body.dats m 0 c).arrAt_in 0 rfl _), ((h c).1 2).trans ((Cert.KernelIdeal.Body.dats m 0 c).arrAt_in 2 rfl _),
       ((h c).1 4).trans ((Cert.KernelIdeal.Body.dats m 0 c).arrAt_in 4 rfl _), ((h c).1 5).trans ((Cert.KernelIdeal.Body.dats m 0 c).arrAt_in 5 rfl _),
       ((h c).1 6).trans ((Cert.KernelIdeal.Body.dats m 0 c).arrAt_in 6 rfl _), ((h c).1 7).trans ((Cert.KernelIdeal.Body.dats m 0 c).arrAt_in 7 rfl _),
       ((h c).1 8).trans ((Cert.KernelIdeal.Body.dats m 0 c).arrAt_in 8 rfl _), ((h c).1 9).trans ((Cert.KernelIdeal.Body.dats m 0 c).arrAt_in 9 rfl _)⟩)
      (Cert.KernelIdeal.Run.run_main (F := Ideal) m ρ)
  · refine (θ_run Cert.ReferenceIdeal.defs _ _).mono (fun r h c => ⟨(h c).1.trans ?_, (h c).2⟩) (Cert.ReferenceIdeal.RefValue.run_spec m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact result_eq m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
